-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 59
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S_, .f32⟩
  | .hbm, ⟨54, _⟩ => ⟨S50000x128, .f32⟩
  | .hbm, ⟨55, _⟩ => ⟨S850000x1, .i32⟩
  | .hbm, ⟨56, _⟩ => ⟨S50000x128, .f32⟩
  | .hbm, ⟨57, _⟩ => ⟨S1x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel's whole run, with every buffer named at the end.

  @main is eight segments — three stretches of host operations, then region 0, a stretch, region 1, a stretch,
  region 2 — and the buffer contents at each segment boundary are a fold from the launch memory (`Gen.W0` … `Gen.W8`:
  a stretch applies its operations, a region replaces its windows' arrays by what its write-backs leave).  Every
  weakly fair execution terminates, nothing faulting, with EVERY unscoped buffer — arguments, intermediate values
  and the result — at the last boundary's contents `Gen.W8`.  The frame claim keeps of this only the arguments;
  the value claim needs the result's buffer as well.
-/
import proofs.«168375_j27633819583001_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in the
    final state every unscoped buffer of every core holds the last boundary's contents `Gen.W8`: the segments' launch,
    the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.RunValue

end
-- ==== Proof.KHost.lean ====
/-
  The idealized kernel's host operations, boundary by boundary.

  Between the launch and the return @main's buffer contents are a fold (`Gen.W0` … `Gen.W8`).  Read at the buffers the
  three regions take, the fold says:
  * the two edge-index vectors (sources and destinations, each followed by the self loops `0 … N-1`) and the column of
    per-node scales are, at every later boundary, the reference's own stages of the edge array — the same operations in
    the same order;
  * what region 1 and region 2 take as their first operand is the scatter-add, by destination, of the rows gathered by
    (normalised) source from the previous region's output;
  * the bias rows are the bias vectors recast as rows, and the argument arrays are as launched.
-/
import proofs.«168375_j27633819583001_2_alg».proof.Proof.Gen.KernelIdeal.Frame
import proofs.«168375_j27633819583001_2_alg».proof.Proof.RefReadP

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The column `[50000, 1]` of per-node scales: the reference's vector of scales, recast. -/
abbrev Dcol (x1 : (⟨S2x800000, .i32⟩ : BufTy).Contents (Elt Ideal)) : (⟨S50000x1, .f32⟩ : BufTy).Contents (Elt Ideal) :=
  shapeCast S50000x1 (Cert.ReferenceIdeal.ReadP.val_main_v15 (F := Ideal) x1) shapeCasts_S50000_S50000x1

/-- Rows gathered by normalised source, added up by destination: one aggregation of a node array `X`. -/
abbrev agg (x1 : (⟨S2x800000, .i32⟩ : BufTy).Contents (Elt Ideal)) (X : (⟨S50000x128, .f32⟩ : BufTy).Contents (Elt Ideal)) :
    (⟨S50000x128, .f32⟩ : BufTy).Contents (Elt Ideal) :=
  Host.scatterAdd (F := Ideal) (φ := .f32) Cert.ReferenceIdeal.scatter_S50000x128_S850000x1_S850000x128_1_0_0_1
    (Cert.ReferenceIdeal.ReadP.val_main_v41 (F := Ideal)) (Cert.ReferenceIdeal.ReadP.val_main_v42 (F := Ideal) x1)
    (Host.gather Cert.ReferenceIdeal.gather_S50000x128_S850000x1_S850000x128_1_0_n_n_0_1_1128 X
      (Cert.ReferenceIdeal.ReadP.val_main_v36 (F := Ideal) x1))

/-! ## The kernel's and the reference's spellings of the shared operations are the same terms -/

theorem sc_eq : Cert.KernelIdeal.scatter_S50000x128_S850000x1_S850000x128_1_0_0_1
    = Cert.ReferenceIdeal.scatter_S50000x128_S850000x1_S850000x128_1_0_0_1 := rfl
theorem g_eq : Cert.KernelIdeal.gather_S50000x128_S850000x1_S850000x128_1_0_n_n_0_1_1128
    = Cert.ReferenceIdeal.gather_S50000x128_S850000x1_S850000x128_1_0_n_n_0_1_1128 := rfl

/-- The zero array the aggregation starts from. -/
theorem zeros_eq : (broadcastInDim S50000x128 ![] bcast_S_S50000x128 (constant (F := Ideal) S_ .f32 0x00000000#32) :
      (⟨S50000x128, .f32⟩ : BufTy).Contents (Elt Ideal))
    = Cert.ReferenceIdeal.ReadP.val_main_v41 (F := Ideal) := rfl

/-- The destinations as a column. -/
theorem dstcol_eq (x1 : (⟨S2x800000, .i32⟩ : BufTy).Contents (Elt Ideal)) :
    (broadcastInDim S850000x1 ![0] bcast_S850000_S850000x1_0 (Cert.ReferenceIdeal.ReadP.val_main_v7 (F := Ideal) x1) :
      (⟨S850000x1, .i32⟩ : BufTy).Contents (Elt Ideal))
    = Cert.ReferenceIdeal.ReadP.val_main_v42 (F := Ideal) x1 := rfl

/-- The sources, a negative one moved up by the number of nodes, as a column. -/
theorem srccol_eq (x1 : (⟨S2x800000, .i32⟩ : BufTy).Contents (Elt Ideal)) :
    (broadcastInDim S850000x1 ![0] bcast_S850000_S850000x1_0
      (select (cmpi .slt (Cert.ReferenceIdeal.ReadP.val_main_v6 (F := Ideal) x1) (broadcastInDim S850000 ![] bcast_S_S850000 (constantI S_ 32 0#32)))
        (addi (Cert.ReferenceIdeal.ReadP.val_main_v6 (F := Ideal) x1) (broadcastInDim S850000 ![] bcast_S_S850000 (constantI S_ 32 50000#32)))
        (Cert.ReferenceIdeal.ReadP.val_main_v6 (F := Ideal) x1)) : (⟨S850000x1, .i32⟩ : BufTy).Contents (Elt Ideal))
    = Cert.ReferenceIdeal.ReadP.val_main_v36 (F := Ideal) x1 := rfl

/-- The kernel's aggregation, in its own spelling, is `agg`. -/
theorem agg_eq (x1 : (⟨S2x800000, .i32⟩ : BufTy).Contents (Elt Ideal)) (X : (⟨S50000x128, .f32⟩ : BufTy).Contents (Elt Ideal)) :
    Host.scatterAdd (F := Ideal) (φ := .f32) Cert.KernelIdeal.scatter_S50000x128_S850000x1_S850000x128_1_0_0_1
      (broadcastInDim S50000x128 ![] bcast_S_S50000x128 (constant (F := Ideal) S_ .f32 0x00000000#32))
      (broadcastInDim S850000x1 ![0] bcast_S850000_S850000x1_0 (Cert.ReferenceIdeal.ReadP.val_main_v7 (F := Ideal) x1))
      (Host.gather Cert.KernelIdeal.gather_S50000x128_S850000x1_S850000x128_1_0_n_n_0_1_1128 X
        (broadcastInDim S850000x1 ![0] bcast_S850000_S850000x1_0
          (select (cmpi .slt (Cert.ReferenceIdeal.ReadP.val_main_v6 (F := Ideal) x1) (broadcastInDim S850000 ![] bcast_S_S850000 (constantI S_ 32 0#32)))
            (addi (Cert.ReferenceIdeal.ReadP.val_main_v6 (F := Ideal) x1) (broadcastInDim S850000 ![] bcast_S_S850000 (constantI S_ 32 50000#32)))
            (Cert.ReferenceIdeal.ReadP.val_main_v6 (F := Ideal) x1))))
    = agg x1 X := by
  rw [sc_eq, g_eq, zeros_eq, dstcol_eq, srccol_eq]

variable (m : (ℓ : Loc nD τ sig) → Buf (Elt Ideal) ℓ) (ρ : Dev nD → PrngReg) (c : Dev nD)

/-! ## Up to region 0 -/

theorem W1_v12 : W1 m ρ c (Proc.devRef .tc main_v12) = Cert.ReferenceIdeal.ReadP.val_main_v13 (F := Ideal) (m ((c.tc : Thread nD τ).loc main_arg1)) := by
  show StableHlo.after hostOps0 (W0 m ρ c) (Proc.devRef .tc main_v12) = _
  after_results
  rfl

theorem W1_v13 : W1 m ρ c (Proc.devRef .tc main_v13) = Cert.ReferenceIdeal.ReadP.val_main_v14 (F := Ideal) (m ((c.tc : Thread nD τ).loc main_arg1)) := by
  show StableHlo.after hostOps0 (W0 m ρ c) (Proc.devRef .tc main_v13) = _
  after_results
  rfl

theorem W1_cst2 : W1 m ρ c (Proc.devRef .tc main_cst_2) = constant (F := Ideal) S_ .f32 0x00000000#32 := by
  show StableHlo.after hostOps0 (W0 m ρ c) (Proc.devRef .tc main_cst_2) = _
  after_results

/-- The outlined `where`: whatever the earlier buffers hold, its result selects between two of them and a splat. -/
theorem where_after (V1 : Valuation τ sig (Elt Ideal)) :
    StableHlo.after hostOps0_1 V1 (Proc.devRef .tc main_v14)
      = select (V1 (Proc.devRef .tc main_v12)) (V1 (Proc.devRef .tc main_v13))
          (broadcastInDim S50000 ![] bcast_S_S50000 (id (V1 (Proc.devRef .tc main_cst_2)))) := by
  after_results
  rfl

/-- The splat of zero the `where` falls back to. -/
theorem zero_splat_eq : (broadcastInDim S50000 ![] bcast_S_S50000 (id (constant (F := Ideal) S_ .f32 0x00000000#32)) :
      (⟨S50000, .f32⟩ : BufTy).Contents (Elt Ideal))
    = Cert.ReferenceIdeal.ReadP.val_main_call0_v1 (F := Ideal) := rfl

/-- The reference's vector of scales is, by definition, that selection. -/
theorem scales_def (x1 : (⟨S2x800000, .i32⟩ : BufTy).Contents (Elt Ideal)) :
    Cert.ReferenceIdeal.ReadP.val_main_v15 (F := Ideal) x1
      = select (Cert.ReferenceIdeal.ReadP.val_main_v13 (F := Ideal) x1) (Cert.ReferenceIdeal.ReadP.val_main_v14 (F := Ideal) x1)
          (Cert.ReferenceIdeal.ReadP.val_main_call0_v1 (F := Ideal)) := rfl

theorem W2_v14 : W2 m ρ c (Proc.devRef .tc main_v14) = Cert.ReferenceIdeal.ReadP.val_main_v15 (F := Ideal) (m ((c.tc : Thread nD τ).loc main_arg1)) := by
  refine (where_after (W1 m ρ c)).trans ?_
  rw [W1_v12 m ρ c, W1_v13 m ρ c, W1_cst2 m ρ c, zero_splat_eq, scales_def]

/-- A vector recast as a column, whatever the earlier buffers hold. -/
theorem column_after (V2 : Valuation τ sig (Elt Ideal)) :
    StableHlo.after hostOps0_2 V2 (Proc.devRef .tc main_v15)
      = shapeCast S50000x1 (V2 (Proc.devRef .tc main_v14)) shapeCasts_S50000_S50000x1 := by
  after_results
  rfl

/-- Region 0 finds the column of scales in its third window's array. -/
theorem W3_v15 : W3 m ρ c (Proc.devRef .tc main_v15) = Dcol (m ((c.tc : Thread nD τ).loc main_arg1)) := by
  refine (column_after (W2 m ρ c)).trans ?_
  rw [W2_v14 m ρ c]

theorem W3_v5 : W3 m ρ c (Proc.devRef .tc main_v5) = Cert.ReferenceIdeal.ReadP.val_main_v6 (F := Ideal) (m ((c.tc : Thread nD τ).loc main_arg1)) := by
  show StableHlo.after hostOps0_2 (StableHlo.after hostOps0_1 (StableHlo.after hostOps0 (W0 m ρ c))) (Proc.devRef .tc main_v5) = _
  after_results
  rfl

theorem W3_v6 : W3 m ρ c (Proc.devRef .tc main_v6) = Cert.ReferenceIdeal.ReadP.val_main_v7 (F := Ideal) (m ((c.tc : Thread nD τ).loc main_arg1)) := by
  show StableHlo.after hostOps0_2 (StableHlo.after hostOps0_1 (StableHlo.after hostOps0 (W0 m ρ c))) (Proc.devRef .tc main_v6) = _
  after_results
  rfl

theorem W3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results
theorem W3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results
theorem W3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results
theorem W3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results
theorem W3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results

/-! ## Region 0 changes only its output array -/

theorem W4_v5 : W4 m ρ c (Proc.devRef .tc main_v5) = Cert.ReferenceIdeal.ReadP.val_main_v6 (F := Ideal) (m ((c.tc : Thread nD τ).loc main_arg1)) :=
  (W4_of_ne m ρ c main_v5 (by decide)).trans (W3_v5 m ρ c)
theorem W4_v6 : W4 m ρ c (Proc.devRef .tc main_v6) = Cert.ReferenceIdeal.ReadP.val_main_v7 (F := Ideal) (m ((c.tc : Thread nD τ).loc main_arg1)) :=
  (W4_of_ne m ρ c main_v6 (by decide)).trans (W3_v6 m ρ c)
theorem W4_v15 : W4 m ρ c (Proc.devRef .tc main_v15) = Dcol (m ((c.tc : Thread nD τ).loc main_arg1)) :=
  (W4_arr m ρ c 2).trans (((dat0 (V3 m ρ) c).arrAt_in 2 rfl _).trans ((A_eq0 (V3 m ρ) c 2).trans (W3_v15 m ρ c)))
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ## Up to region 1 -/

/-- Region 1's first operand is the aggregation of region 0's output. -/
theorem W5_v26 : W5 m ρ c (Proc.devRef .tc main_v26) = agg (m ((c.tc : Thread nD τ).loc main_arg1)) (W4 m ρ c (Proc.devRef .tc main_v16)) := by
  have h5 := W4_v5 m ρ c
  have h6 := W4_v6 m ρ c
  show StableHlo.after hostOps1 (W4 m ρ c) (Proc.devRef .tc main_v26) = _
  generalize W4 m ρ c = V4 at h5 h6 ⊢
  after_results
  rw [h5, h6]
  exact agg_eq _ _

theorem W5_v27 : W5 m ρ c (Proc.devRef .tc main_v27) = shapeCast S1x128 (m ((c.tc : Thread nD τ).loc main_arg3)) shapeCasts_S128_S1x128 := by
  have h3 := W4_arg3 m ρ c
  show StableHlo.after hostOps1 (W4 m ρ c) (Proc.devRef .tc main_v27) = _
  generalize W4 m ρ c = V4 at h3 ⊢
  after_results
  rw [h3]
  rfl

theorem W5_v15 : W5 m ρ c (Proc.devRef .tc main_v15) = Dcol (m ((c.tc : Thread nD τ).loc main_arg1)) := by
  have h := W4_v15 m ρ c
  show StableHlo.after hostOps1 (W4 m ρ c) (Proc.devRef .tc main_v15) = _
  generalize W4 m ρ c = V4 at h ⊢
  after_results
  exact h
theorem W5_arg4 : W5 m ρ c (Proc.devRef .tc main_arg4) = (m ((c.tc : Thread nD τ).loc main_arg4)) := by
  have h := W4_arg4 m ρ c
  show StableHlo.after hostOps1 (W4 m ρ c) (Proc.devRef .tc main_arg4) = _
  generalize W4 m ρ c = V4 at h ⊢
  after_results
  exact h
theorem W5_arg5 : W5 m ρ c (Proc.devRef .tc main_arg5) = (m ((c.tc : Thread nD τ).loc main_arg5)) := by
  have h := W4_arg5 m ρ c
  show StableHlo.after hostOps1 (W4 m ρ c) (Proc.devRef .tc main_arg5) = _
  generalize W4 m ρ c = V4 at h ⊢
  after_results
  exact h
theorem W5_v5 : W5 m ρ c (Proc.devRef .tc main_v5) = Cert.ReferenceIdeal.ReadP.val_main_v6 (F := Ideal) (m ((c.tc : Thread nD τ).loc main_arg1)) := by
  have h := W4_v5 m ρ c
  show StableHlo.after hostOps1 (W4 m ρ c) (Proc.devRef .tc main_v5) = _
  generalize W4 m ρ c = V4 at h ⊢
  after_results
  exact h
theorem W5_v6 : W5 m ρ c (Proc.devRef .tc main_v6) = Cert.ReferenceIdeal.ReadP.val_main_v7 (F := Ideal) (m ((c.tc : Thread nD τ).loc main_arg1)) := by
  have h := W4_v6 m ρ c
  show StableHlo.after hostOps1 (W4 m ρ c) (Proc.devRef .tc main_v6) = _
  generalize W4 m ρ c = V4 at h ⊢
  after_results
  exact h

/-! ## Region 1 changes only its output array -/

theorem W6_v5 : W6 m ρ c (Proc.devRef .tc main_v5) = Cert.ReferenceIdeal.ReadP.val_main_v6 (F := Ideal) (m ((c.tc : Thread nD τ).loc main_arg1)) :=
  (W6_of_ne m ρ c main_v5 (by decide)).trans (W5_v5 m ρ c)
theorem W6_v6 : W6 m ρ c (Proc.devRef .tc main_v6) = Cert.ReferenceIdeal.ReadP.val_main_v7 (F := Ideal) (m ((c.tc : Thread nD τ).loc main_arg1)) :=
  (W6_of_ne m ρ c main_v6 (by decide)).trans (W5_v6 m ρ c)
theorem W6_v15 : W6 m ρ c (Proc.devRef .tc main_v15) = Dcol (m ((c.tc : Thread nD τ).loc main_arg1)) :=
  (W6_arr m ρ c 1).trans (((dat1 (V5 m ρ) c).arrAt_in 1 rfl _).trans ((A_eq1 (V5 m ρ) c 1).trans (W5_v15 m ρ c)))
theorem W6_arg5 : W6 m ρ c (Proc.devRef .tc main_arg5) = (m ((c.tc : Thread nD τ).loc main_arg5)) :=
  (W6_of_ne m ρ c main_arg5 (by decide)).trans (W5_arg5 m ρ c)

/-! ## Up to region 2 -/

/-- Region 2's first operand is the aggregation of region 1's output. -/
theorem W7_v38 : W7 m ρ c (Proc.devRef .tc main_v38) = agg (m ((c.tc : Thread nD τ).loc main_arg1)) (W6 m ρ c (Proc.devRef .tc main_v28)) := by
  have h5 := W6_v5 m ρ c
  have h6 := W6_v6 m ρ c
  show StableHlo.after hostOps2 (W6 m ρ c) (Proc.devRef .tc main_v38) = _
  generalize W6 m ρ c = V6 at h5 h6 ⊢
  after_results
  rw [h5, h6]
  exact agg_eq _ _

theorem W7_v39 : W7 m ρ c (Proc.devRef .tc main_v39) = shapeCast S1x128 (m ((c.tc : Thread nD τ).loc main_arg5)) shapeCasts_S128_S1x128 := by
  have h3 := W6_arg5 m ρ c
  show StableHlo.after hostOps2 (W6 m ρ c) (Proc.devRef .tc main_v39) = _
  generalize W6 m ρ c = V6 at h3 ⊢
  after_results
  rw [h3]
  rfl

theorem W7_v15 : W7 m ρ c (Proc.devRef .tc main_v15) = Dcol (m ((c.tc : Thread nD τ).loc main_arg1)) := by
  have h := W6_v15 m ρ c
  show StableHlo.after hostOps2 (W6 m ρ c) (Proc.devRef .tc main_v15) = _
  generalize W6 m ρ c = V6 at h ⊢
  after_results
  exact h

end Cert.KernelIdeal.HostValue

end
-- ==== Proof.GcnSpec.lean ====
/-
  The three dense stages of a two-layer graph convolution, each as one whole-array function of its operand arrays,
  written by coordinates over the extended reals.  Throughout, `N = 50000` nodes carry `128` features; `D` is a
  column `[N, 1]` of per-node scales (the inverse square roots of the degrees), `B` a row `[1, 128]` (a bias).

  * `lin X W`         : the matrix product, entry `(r, c)` is `∑ k, X (r, k) * W (k, c)`.
  * `scaledLin X W D` : the product with row `r` scaled by `D (r, 0)` — what the first stage leaves.
  * `act A D B`       : `max (A (r, k) * D (r, 0) + B (0, k)) 0` — an aggregated row scaled back, biased, rectified.
  * `actScaledLin`    : the second stage, `(∑ k, act A D B r k * W (k, c)) * D (r, 0)`.
  * `scaleBias A D B` : the last stage, `A (r, c) * D (r, 0) + B (0, c)`.
-/
import Idealize.ShloMosaic.Lib.ValueIdx
import Idealize.ShloMosaic.PureOps.Ideal

noncomputable section

namespace Cert.Gcn

open Idealize.ShloMosaic Idealize.ShloMosaic.ValueIdx

/-- Node features `[50000, 128]`. -/
abbrev SNode : Shape := ⟨2, ![50000, 128]⟩
/-- A weight matrix `[128, 128]`. -/
abbrev SWt : Shape := ⟨2, ![128, 128]⟩
/-- A column of per-node scales `[50000, 1]`. -/
abbrev SCol : Shape := ⟨2, ![50000, 1]⟩
/-- A bias row `[1, 128]`. -/
abbrev SRow : Shape := ⟨2, ![1, 128]⟩

/-- Entry `(r, c)` of the matrix product `X W`. -/
def lin (X : SNode.Idx → EReal) (W : SWt.Idx → EReal) (r : Fin 50000) (c : Fin 128) : EReal :=
  ∑ k : Fin 128, X (ix2 r k) * W (ix2 k c)

/-- The product `X W` with row `r` scaled by `D (r, 0)`. -/
def scaledLin (X : SNode.Idx → EReal) (W : SWt.Idx → EReal) (D : SCol.Idx → EReal) (r : Fin 50000) (c : Fin 128) : EReal :=
  lin X W r c * D (ix2 r (0 : Fin 1))

/-- An aggregated entry scaled back by its node's scale, biased and rectified. -/
def act (A : SNode.Idx → EReal) (D : SCol.Idx → EReal) (B : SRow.Idx → EReal) (r : Fin 50000) (k : Fin 128) : EReal :=
  max (A (ix2 r k) * D (ix2 r (0 : Fin 1)) + B (ix2 (0 : Fin 1) k)) 0

/-- The rectified rows times `W`, row `r` scaled by `D (r, 0)` again. -/
def actScaledLin (A : SNode.Idx → EReal) (D : SCol.Idx → EReal) (B : SRow.Idx → EReal) (W : SWt.Idx → EReal)
    (r : Fin 50000) (c : Fin 128) : EReal :=
  (∑ k : Fin 128, act A D B r k * W (ix2 k c)) * D (ix2 r (0 : Fin 1))

/-- An aggregated entry scaled back by its node's scale and biased. -/
def scaleBias (A : SNode.Idx → EReal) (D : SCol.Idx → EReal) (B : SRow.Idx → EReal) (r : Fin 50000) (c : Fin 128) : EReal :=
  A (ix2 r c) * D (ix2 r (0 : Fin 1)) + B (ix2 (0 : Fin 1) c)

end Cert.Gcn

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KBlockProduct.lean ====
/-
  One block of the matrix product: a `[5000, 128]` block of rows times a `[128, 128]` matrix, accumulated into
  the zero array, read at the coordinates `(p, q)`, is the sum over the inner coordinate `k` of the block's
  entry `(p, k)` times the matrix's entry `(k, q)`.

  The contraction runs over one axis, so its index set is `Fin 128` up to a bijection; re-indexing the sum by
  it and reading the two operand indices coordinate by coordinate gives the statement.
-/
import proofs.«168375_j27633819583001_2_alg».proof.Proof.Gen.KernelIdeal
import Idealize.ShloMosaic.Lib.ValueIdx
import Idealize.ShloMosaic.PureOps.Ideal.Laws

noncomputable section

namespace Cert.KernelIdeal.RegionValue

open Cert.KernelIdeal Idealize.ShloMosaic Idealize.ShloMosaic.ValueIdx

/-- The dimension numbers of the block product: rows by inner, inner by columns. -/
abbrev blockDot : DotDims S5000x128 S128x128 S5000x128 := dot_S5000x128_S128x128_S5000x128_1_0_0_1_n_n

/-- The left operand's row is the output's row. -/
theorem blockDot_lhs_row (i : S5000x128.Idx) (κ : blockDot.contr.Idx) : (blockDot.lhsIdx i κ 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl

/-- The right operand's column is the output's column. -/
theorem blockDot_rhs_col (i : S5000x128.Idx) (κ : blockDot.contr.Idx) : (blockDot.rhsIdx i κ 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- The block product into the zero array at `(p, q)`: `∑ k, L (p, k) * R (k, q)`. -/
theorem blockProduct_apply {φ₁ φ₂ : FTy} (L : FVec Ideal S5000x128 φ₁) (R : FVec Ideal S128x128 φ₂)
    (p : Fin 5000) (q : Fin 128) :
    matmul blockDot none L R (constant (F := Ideal) S5000x128 .f32 0x00000000#32) (ix2 p q)
      = ∑ k : Fin 128, L (ix2 p k) * R (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k :=
    funext fun a => Fin.ext (by
      match a with
      | ⟨0, _⟩ => exact blockDot_lhs_row _ _
      | ⟨1, _⟩ => exact (blockDot.lhsIdx_val_of_single rfl _ _).trans hk)
  have er : blockDot.rhsIdx (ix2 p q) ((contrEquiv1 blockDot 128 rfl rfl).symm k) = ix2 k q :=
    funext fun a => Fin.ext (by
      match a with
      | ⟨0, _⟩ => exact (blockDot.rhsIdx_val_of_single rfl _ _).trans hk
      | ⟨1, _⟩ => exact blockDot_rhs_col _ _)
  rw [el, er]

end Cert.KernelIdeal.RegionValue

end
-- ==== Proof.KRegion0.lean ====
/-
  The first dense stage, read off the first grid of row blocks: each of the ten points takes a block of 5000 rows
  of the node features, the whole weight matrix and the matching 5000 entries of the column of scales, and writes
  back the block `(∑ k, X (r, k) * W (k, c)) * D (r, 0)`. Here the written array is shown to be that one
  function of the three operand arrays, entry by entry.

  The steps: the block's arithmetic read at a coordinate pair `(p, q)` inside a block (narrowing to the shorter
  float format changes nothing over the extended reals; the block product is a sum over the inner coordinate);
  where a block's coordinate sits in the array (block number times 5000, plus the coordinate inside the block;
  columns are not cut, and the weight matrix is one block); every row lies in the block numbered `r / 5000`; so
  the blocks written back tile the array.
-/
import proofs.«168375_j27633819583001_2_alg».proof.Proof.Gen.KernelIdeal.Frame
import proofs.«168375_j27633819583001_2_alg».proof.Proof.GcnSpec
import proofs.«168375_j27633819583001_2_alg».proof.Proof.LibKeepdims
import proofs.«168375_j27633819583001_2_alg».proof.Proof.KBlockProduct
import Idealize.ShloMosaic.Lib.Pipeline.Value
import Idealize.ShloMosaic.Lib.ValueLayout
import Idealize.ShloMosaic.Lib.ValueIdx
import Idealize.ShloMosaic.PureOps.Ideal

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zeroOff0 : (![0, 0] : Fin 2 → Nat) = fun _ => 0 := funext fun a => by fin_cases a <;> rfl

/-- The block's arithmetic at the coordinates `(p, q)` inside a block: the row of the feature block times the
    column of the weights, scaled by the row's scale. -/
theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply, blockProduct_apply, shapeCast_self, Cert.LibKeepdims.broadcastTo_a1_ab_apply]
  rfl

/-- The first stage as a function of a `[50000, 128]` index. -/
abbrev G0 (X : Cert.Gcn.SNode.Idx → EReal) (W : Cert.Gcn.SWt.Idx → EReal) (D : Cert.Gcn.SCol.Idx → EReal) :
    S50000x128.Idx → EReal := fun i => Cert.Gcn.scaledLin X W D (i 0) (i 1)

/-- Where the blocks sit, decided over the ten points: the row-block number of the features, of the column of
    scales and of the written array is the point's number; the weight matrix is not cut; no window is cut along
    the columns. -/
theorem idx_facts_r0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry `(p, q)` of the feature block at point `t` is the features' entry in row `t * 5000 + p`. -/
theorem blk0_0_apply (c : Dev nD) (t : Fin cfg0.N) (p : Fin 5000) (q : Fin 128) (r : Fin 50000)
    (hr : r.val = t.val * 5000 + p.val) :
    iblk0 (F := Ideal) V c 0 t (ix2 p q) = V c (Pipeline.arrRef spec0 0) (ix2 r q) := by
  obtain ⟨e0, e1, -, -, -, -, -, -⟩ := idx_facts_r0 t
  show V c (Pipeline.arrRef spec0 0) (((cfg0.win 0).blk t).view.emb (ix2 p q)) = _
  refine congrArg (V c (Pipeline.arrRef spec0 0)) ?_
  funext a; apply Fin.ext
  match a with
  | ⟨0, _⟩ => show win0_0.index t (0 : Fin 2) * 5000 + 1 * p.val = r.val; omega
  | ⟨1, _⟩ => show win0_0.index t (1 : Fin 2) * 128 + 1 * q.val = q.val; omega

/-- The weight matrix's block at any point is the whole matrix. -/
theorem blk0_1_apply (c : Dev nD) (t : Fin cfg0.N) (k : Fin 128) (q : Fin 128) :
    iblk0 (F := Ideal) V c 1 t (ix2 k q) = V c (Pipeline.arrRef spec0 1) (ix2 k q) := by
  obtain ⟨-, -, e0, e1, -, -, -, -⟩ := idx_facts_r0 t
  show V c (Pipeline.arrRef spec0 1) (((cfg0.win 1).blk t).view.emb (ix2 k q)) = _
  refine congrArg (V c (Pipeline.arrRef spec0 1)) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Entry `(p, 0)` of the block of the column of scales at point `t` is the column's entry `t * 5000 + p`. -/
theorem blk0_2_apply (c : Dev nD) (t : Fin cfg0.N) (p : Fin 5000) (r : Fin 50000)
    (hr : r.val = t.val * 5000 + p.val) :
    iblk0 (F := Ideal) V c 2 t (ix2 p (0 : Fin 1)) = V c (Pipeline.arrRef spec0 2) (ix2 r (0 : Fin 1)) := by
  obtain ⟨-, -, -, -, e0, e1, -, -⟩ := idx_facts_r0 t
  show V c (Pipeline.arrRef spec0 2) (((cfg0.win 2).blk t).view.emb (ix2 p (0 : Fin 1))) = _
  refine congrArg (V c (Pipeline.arrRef spec0 2)) ?_
  funext a; apply Fin.ext
  match a with
  | ⟨0, _⟩ => show win0_2.index t (0 : Fin 2) * 5000 + 1 * p.val = r.val; omega
  | ⟨1, _⟩ => show win0_2.index t (1 : Fin 2) * 1 + 1 * 0 = 0; omega

/-- WHAT POINT `t` WRITES BACK is block `t` of the first stage of the three operand arrays as the grid finds them. -/
theorem flushed_r0 (c : Dev nD) (t : Fin cfg0.N) :
    (dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOff0]
  simp only [View.ld_unit_zero (S := S5000x128) zeroOff0, View.ld_unit_zero (S := S128x128) zeroOff0,
    View.ld_unit_zero (S := S5000x1) zeroOff0]
  funext j
  obtain ⟨p, q, rfl⟩ : ∃ (p : Fin 5000) (q : Fin 128), j = ix2 p q := ⟨j 0, j 1, eq_ix2 j⟩
  have ht : t.val < 10 := by have h := t.isLt; have hN : grid0.N = 10 := N_0; exact hN ▸ h
  obtain ⟨r, hr⟩ : ∃ r : Fin 50000, r.val = t.val * 5000 + p.val := ⟨⟨t.val * 5000 + p.val, by omega⟩, rfl⟩
  obtain ⟨-, -, -, -, -, -, e0, e1⟩ := idx_facts_r0 t
  have hemb : ((cfg0.win 3).blk t).view.emb (ix2 p q) = (ix2 r q : S50000x128.Idx) := by
    funext a; apply Fin.ext
    match a with
    | ⟨0, _⟩ => show win0_3.index t (0 : Fin 2) * 5000 + 1 * p.val = r.val; omega
    | ⟨1, _⟩ => show win0_3.index t (1 : Fin 2) * 128 + 1 * q.val = q.val; omega
  show k0_pay1 (iblk0 V c 0 t) (iblk0 V c 1 t) (iblk0 V c 2 t) (ix2 p q)
    = G0 (V c (Pipeline.arrRef spec0 0)) (V c (Pipeline.arrRef spec0 1)) (V c (Pipeline.arrRef spec0 2))
        (((cfg0.win 3).blk t).view.emb (ix2 p q))
  rw [hemb]
  refine (pay0_apply (iblk0 V c 0 t) (iblk0 V c 1 t) (iblk0 V c 2 t) p q).trans ?_
  rw [blk0_2_apply V c t p r hr]
  refine congrArg (· * V c (Pipeline.arrRef spec0 2) (ix2 r (0 : Fin 1))) ?_
  exact Finset.sum_congr rfl fun k _ => by rw [blk0_0_apply V c t p k r hr, blk0_1_apply V c t k q]

/-- An index of the array is in point `t`'s block iff each coordinate is in the block's range on its axis. -/
theorem mem_blk_r0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every entry of the array is written: row `r` lies in the block of point `r / 5000`. -/
theorem cover_r0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨-, -, -, -, -, -, e0, e1⟩ := idx_facts_r0 t
  have htv : t.val = (i 0).val / 5000 := rfl
  refine ⟨t, flush0_3 t, ?_⟩
  rw [mem_blk_r0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY the first grid leaves: the first stage of its three operand arrays, entry by entry. -/
theorem final0 (c : Dev nD) (r : Fin 50000) (k : Fin 128) :
    (dat0 (F := Ideal) V c).arrAt 3 cfg0.N (ix2 r k)
      = Cert.Gcn.scaledLin (V c (Pipeline.arrRef spec0 0)) (V c (Pipeline.arrRef spec0 1))
          (V c (Pipeline.arrRef spec0 2)) r k := by
  rw [(dat0 (F := Ideal) V c).arrAt_eq_of_cover 3
    (G0 (V c (Pipeline.arrRef spec0 0)) (V c (Pipeline.arrRef spec0 1)) (V c (Pipeline.arrRef spec0 2)))
    (fun t _ => flushed_r0 V c t) cover_r0]

end Cert.KernelIdeal.RegionValue

end
-- ==== Proof.KRegion1.lean ====
/-
  The second dense stage, read off the second grid of row blocks: each of the ten points takes a block of 5000
  rows of the aggregated array, the matching 5000 entries of the column of scales, the whole bias row and the
  whole weight matrix; it scales each row back, adds the bias, rectifies, multiplies by the weights and scales the
  row again, writing back the block `(∑ k, max (A (r, k) * D (r, 0) + B (0, k)) 0 * W (k, c)) * D (r, 0)`.
  Here the written array is shown to be that one function of the four operand arrays, entry by entry.

  The steps: the block's arithmetic read at a coordinate pair `(p, q)` inside a block (narrowing to the shorter
  float format changes nothing over the extended reals; the block product is a sum over the inner coordinate; the
  zero constant is the extended real `0`); where a block's coordinate sits in the array (block number times 5000,
  plus the coordinate inside the block; columns are not cut, and the bias row and the weight matrix are one
  block each); every row lies in the block numbered `r / 5000`; so the blocks written back tile the array.
-/
import proofs.«168375_j27633819583001_2_alg».proof.Proof.Gen.KernelIdeal.Frame
import proofs.«168375_j27633819583001_2_alg».proof.Proof.GcnSpec
import proofs.«168375_j27633819583001_2_alg».proof.Proof.LibKeepdims
import proofs.«168375_j27633819583001_2_alg».proof.Proof.KBlockProduct
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zeroOff1 : (![0, 0] : Fin 2 → Nat) = fun _ => 0 := funext fun a => by fin_cases a <;> rfl

/-- The block's arithmetic at the coordinates `(p, q)` inside a block: the rectified, rescaled and biased row
    times the column of the weights, scaled by the row's scale. The scale is read twice, as `x1` and as `x4`. -/
theorem pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k1_pay1
  rw [mulf_apply, blockProduct_apply, shapeCast_self x4, Cert.LibKeepdims.broadcastTo_a1_ab_apply]
  refine congrArg (· * x4 (ix2 p (0 : Fin 1))) (Finset.sum_congr rfl fun k _ => ?_)
  rw [truncf_apply, truncf_apply, maximumf_apply, addf_apply, mulf_apply, shapeCast_self x0, shapeCast_self x1,
    shapeCast_self x2, Cert.LibKeepdims.broadcastTo_a1_ab_apply, broadcastTo_1b_ab_apply, broadcast_apply]
  rw [show (Scalar.ofBits .f32 0x00000000#32 : Ideal .f32) = 0 from Ideal.ofBits_zero_f32]

/-- The second stage as a function of a `[50000, 128]` index. -/
abbrev G1 (A : Cert.Gcn.SNode.Idx → EReal) (D : Cert.Gcn.SCol.Idx → EReal) (B : Cert.Gcn.SRow.Idx → EReal)
    (W : Cert.Gcn.SWt.Idx → EReal) : S50000x128.Idx → EReal := fun i => Cert.Gcn.actScaledLin A D B W (i 0) (i 1)

/-- Where the blocks sit, decided over the ten points: the row-block number of the aggregated array, of the
    column of scales and of the written array is the point's number; the bias row and the weight matrix are not
    cut; no window is cut along the columns. -/
theorem idx_facts_r1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Entry `(p, q)` of the block of the aggregated array at point `t` is the array's entry in row `t * 5000 + p`. -/
theorem blk1_0_apply (c : Dev nD) (t : Fin cfg1.N) (p : Fin 5000) (q : Fin 128) (r : Fin 50000)
    (hr : r.val = t.val * 5000 + p.val) :
    iblk1 (F := Ideal) V c 0 t (ix2 p q) = V c (Pipeline.arrRef spec1 0) (ix2 r q) := by
  obtain ⟨e0, e1, -, -, -, -, -, -, -, -⟩ := idx_facts_r1 t
  show V c (Pipeline.arrRef spec1 0) (((cfg1.win 0).blk t).view.emb (ix2 p q)) = _
  refine congrArg (V c (Pipeline.arrRef spec1 0)) ?_
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- Entry `(p, 0)` of the block of the column of scales at point `t` is the column's entry `t * 5000 + p`. -/
theorem blk1_1_apply (c : Dev nD) (t : Fin cfg1.N) (p : Fin 5000) (r : Fin 50000)
    (hr : r.val = t.val * 5000 + p.val) :
    iblk1 (F := Ideal) V c 1 t (ix2 p (0 : Fin 1)) = V c (Pipeline.arrRef spec1 1) (ix2 r (0 : Fin 1)) := by
  obtain ⟨-, -, e0, e1, -, -, -, -, -, -⟩ := idx_facts_r1 t
  show V c (Pipeline.arrRef spec1 1) (((cfg1.win 1).blk t).view.emb (ix2 p (0 : Fin 1))) = _
  refine congrArg (V c (Pipeline.arrRef spec1 1)) ?_
  funext a; apply Fin.ext
  match a with
  | ⟨0, _⟩ => show win1_1.index t (0 : Fin 2) * 5000 + 1 * p.val = r.val; omega
  | ⟨1, _⟩ => show win1_1.index t (1 : Fin 2) * 1 + 1 * 0 = 0; omega

/-- The bias row's block at any point is the whole row. -/
theorem blk1_2_apply (c : Dev nD) (t : Fin cfg1.N) (q : Fin 128) :
    iblk1 (F := Ideal) V c 2 t (ix2 (0 : Fin 1) q) = V c (Pipeline.arrRef spec1 2) (ix2 (0 : Fin 1) q) := by
  obtain ⟨-, -, -, -, e0, e1, -, -, -, -⟩ := idx_facts_r1 t
  show V c (Pipeline.arrRef spec1 2) (((cfg1.win 2).blk t).view.emb (ix2 (0 : Fin 1) q)) = _
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-- The weight matrix's block at any point is the whole matrix. -/
theorem blk1_3_apply (c : Dev nD) (t : Fin cfg1.N) (k : Fin 128) (q : Fin 128) :
    iblk1 (F := Ideal) V c 3 t (ix2 k q) = V c (Pipeline.arrRef spec1 3) (ix2 k q) := by
  obtain ⟨-, -, -, -, -, -, e0, e1, -, -⟩ := idx_facts_r1 t
  show V c (Pipeline.arrRef spec1 3) (((cfg1.win 3).blk t).view.emb (ix2 k q)) = _
  refine congrArg (V c (Pipeline.arrRef spec1 3)) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- WHAT POINT `t` WRITES BACK is block `t` of the second stage of the four operand arrays as the grid finds them. -/
theorem flushed_r1 (c : Dev nD) (t : Fin cfg1.N) :
    (dat1 (F := Ideal) V c).flushed 4 t = ((cfg1.win 4).blk t).view.read (Elt Ideal)
      (G1 (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zeroOff1]
  simp only [View.ld_unit_zero (S := S5000x128) zeroOff1, View.ld_unit_zero (S := S5000x1) zeroOff1,
    View.ld_unit_zero (S := S1x128) zeroOff1, View.ld_unit_zero (S := S128x128) zeroOff1]
  funext j
  obtain ⟨p, q, rfl⟩ : ∃ (p : Fin 5000) (q : Fin 128), j = ix2 p q := ⟨j 0, j 1, eq_ix2 j⟩
  have ht : t.val < 10 := by have h := t.isLt; have hN : grid1.N = 10 := N_1; exact hN ▸ h
  obtain ⟨r, hr⟩ : ∃ r : Fin 50000, r.val = t.val * 5000 + p.val := ⟨⟨t.val * 5000 + p.val, by omega⟩, rfl⟩
  obtain ⟨-, -, -, -, -, -, -, -, e0, e1⟩ := idx_facts_r1 t
  have hemb : ((cfg1.win 4).blk t).view.emb (ix2 p q) = (ix2 r q : S50000x128.Idx) := by
    funext a; apply Fin.ext
    match a with
    | ⟨0, _⟩ => show win1_4.index t (0 : Fin 2) * 5000 + 1 * p.val = r.val; omega
    | ⟨1, _⟩ => show win1_4.index t (1 : Fin 2) * 128 + 1 * q.val = q.val; omega
  show k1_pay1 (iblk1 V c 0 t) (iblk1 V c 1 t) (iblk1 V c 2 t) (iblk1 V c 3 t) (iblk1 V c 1 t) (ix2 p q)
    = G1 (V c (Pipeline.arrRef spec1 0)) (V c (Pipeline.arrRef spec1 1)) (V c (Pipeline.arrRef spec1 2))
        (V c (Pipeline.arrRef spec1 3)) (((cfg1.win 4).blk t).view.emb (ix2 p q))
  rw [hemb]
  refine (pay1_apply (iblk1 V c 0 t) (iblk1 V c 1 t) (iblk1 V c 2 t) (iblk1 V c 3 t) (iblk1 V c 1 t) p q).trans ?_
  rw [blk1_1_apply V c t p r hr]
  refine congrArg (· * V c (Pipeline.arrRef spec1 1) (ix2 r (0 : Fin 1))) ?_
  exact Finset.sum_congr rfl fun k _ => by
    rw [blk1_0_apply V c t p k r hr, blk1_2_apply V c t k, blk1_3_apply V c t k q]; rfl

/-- An index of the array is in point `t`'s block iff each coordinate is in the block's range on its axis. -/
theorem mem_blk_r1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28).slice (win1_4.rect t)).set ↔ _
  rw [View.set_slice_whole, Rect.mem_set_unit]
  exact Iff.rfl

/-- Every entry of the array is written: row `r` lies in the block of point `r / 5000`. -/
theorem cover_r1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨-, -, -, -, -, -, -, -, e0, e1⟩ := idx_facts_r1 t
  have htv : t.val = (i 0).val / 5000 := rfl
  refine ⟨t, flush1_4 t, ?_⟩
  rw [mem_blk_r1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY the second grid leaves: the second stage of its four operand arrays, entry by entry. -/
theorem final1 (c : Dev nD) (r : Fin 50000) (k : Fin 128) :
    (dat1 (F := Ideal) V c).arrAt 4 cfg1.N (ix2 r k)
      = Cert.Gcn.actScaledLin (V c (Pipeline.arrRef spec1 0)) (V c (Pipeline.arrRef spec1 1))
          (V c (Pipeline.arrRef spec1 2)) (V c (Pipeline.arrRef spec1 3)) r k := by
  rw [(dat1 (F := Ideal) V c).arrAt_eq_of_cover 4
    (G1 (V c (Pipeline.arrRef spec1 0)) (V c (Pipeline.arrRef spec1 1)) (V c (Pipeline.arrRef spec1 2))
      (V c (Pipeline.arrRef spec1 3)))
    (fun t _ => flushed_r1 V c t) cover_r1]

end Cert.KernelIdeal.RegionValue

end
-- ==== Proof.KRegion2.lean ====
/-
  The last dense stage, read off the third grid of row blocks: each of the ten points takes a block of 5000 rows
  of the aggregated array, the matching 5000 entries of the column of scales and the whole bias row, and writes
  back the block `A (r, c) * D (r, 0) + B (0, c)`. Here the written array is shown to be that one function of
  the three operand arrays, entry by entry.

  The steps: the block's arithmetic read at a coordinate pair `(p, q)` inside a block; where a block's
  coordinate sits in the array (block number times 5000, plus the coordinate inside the block; columns are not
  cut); every row lies in the block numbered `r / 5000`; so the blocks written back tile the array.
-/
import proofs.«168375_j27633819583001_2_alg».proof.Proof.Gen.KernelIdeal.Frame
import proofs.«168375_j27633819583001_2_alg».proof.Proof.GcnSpec
import proofs.«168375_j27633819583001_2_alg».proof.Proof.LibKeepdims
import Idealize.ShloMosaic.Lib.Pipeline.Value
import Idealize.ShloMosaic.Lib.ValueLayout
import Idealize.ShloMosaic.Lib.ValueIdx
import Idealize.ShloMosaic.PureOps.Ideal

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zeroOff2 : (![0, 0] : Fin 2 → Nat) = fun _ => 0 := funext fun a => by fin_cases a <;> rfl

/-- The block's arithmetic at the coordinates `(p, q)` inside a block: the aggregated entry times its row's
    scale, plus the bias of its column. -/
theorem pay2_apply (x0 : Vec Ideal S5000x128 .f32) (x1 : Vec Ideal S5000x1 .f32) (x2 : Vec Ideal S1x128 .f32)
    (p : Fin 5000) (q : Fin 128) :
    k2_pay1 x0 x1 x2 (ix2 p q) = x0 (ix2 p q) * x1 (ix2 p (0 : Fin 1)) + x2 (ix2 (0 : Fin 1) q) := by
  unfold k2_pay1
  rw [addf_apply, mulf_apply, shapeCast_self, shapeCast_self, shapeCast_self,
    Cert.LibKeepdims.broadcastTo_a1_ab_apply, broadcastTo_1b_ab_apply]

/-- The third stage as a function of a `[50000, 128]` index. -/
abbrev G2 (A : Cert.Gcn.SNode.Idx → EReal) (D : Cert.Gcn.SCol.Idx → EReal) (B : Cert.Gcn.SRow.Idx → EReal) :
    S50000x128.Idx → EReal := fun i => Cert.Gcn.scaleBias A D B (i 0) (i 1)

/-- Where the blocks sit, decided over the ten points: the row-block number of the aggregated array, of the
    column of scales and of the written array is the point's number; the bias row is not cut; no window is cut
    along the columns. -/
theorem idx_facts_r2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Entry `(p, q)` of the block of the aggregated array at point `t` is the array's entry in row `t * 5000 + p`. -/
theorem blk2_0_apply (c : Dev nD) (t : Fin cfg2.N) (p : Fin 5000) (q : Fin 128) (r : Fin 50000)
    (hr : r.val = t.val * 5000 + p.val) :
    iblk2 (F := Ideal) V c 0 t (ix2 p q) = V c (Pipeline.arrRef spec2 0) (ix2 r q) := by
  obtain ⟨e0, e1, -, -, -, -, -, -⟩ := idx_facts_r2 t
  show V c (Pipeline.arrRef spec2 0) (((cfg2.win 0).blk t).view.emb (ix2 p q)) = _
  refine congrArg (V c (Pipeline.arrRef spec2 0)) ?_
  funext a; apply Fin.ext
  match a with
  | ⟨0, _⟩ => show win2_0.index t (0 : Fin 2) * 5000 + 1 * p.val = r.val; omega
  | ⟨1, _⟩ => show win2_0.index t (1 : Fin 2) * 128 + 1 * q.val = q.val; omega

/-- Entry `(p, 0)` of the block of the column of scales at point `t` is the column's entry `t * 5000 + p`. -/
theorem blk2_1_apply (c : Dev nD) (t : Fin cfg2.N) (p : Fin 5000) (r : Fin 50000)
    (hr : r.val = t.val * 5000 + p.val) :
    iblk2 (F := Ideal) V c 1 t (ix2 p (0 : Fin 1)) = V c (Pipeline.arrRef spec2 1) (ix2 r (0 : Fin 1)) := by
  obtain ⟨-, -, e0, e1, -, -, -, -⟩ := idx_facts_r2 t
  show V c (Pipeline.arrRef spec2 1) (((cfg2.win 1).blk t).view.emb (ix2 p (0 : Fin 1))) = _
  refine congrArg (V c (Pipeline.arrRef spec2 1)) ?_
  funext a; apply Fin.ext
  match a with
  | ⟨0, _⟩ => show win2_1.index t (0 : Fin 2) * 5000 + 1 * p.val = r.val; omega
  | ⟨1, _⟩ => show win2_1.index t (1 : Fin 2) * 1 + 1 * 0 = 0; omega

/-- The bias row's block at any point is the whole row. -/
theorem blk2_2_apply (c : Dev nD) (t : Fin cfg2.N) (q : Fin 128) :
    iblk2 (F := Ideal) V c 2 t (ix2 (0 : Fin 1) q) = V c (Pipeline.arrRef spec2 2) (ix2 (0 : Fin 1) q) := by
  obtain ⟨-, -, -, -, e0, e1, -, -⟩ := idx_facts_r2 t
  show V c (Pipeline.arrRef spec2 2) (((cfg2.win 2).blk t).view.emb (ix2 (0 : Fin 1) q)) = _
  refine congrArg (V c (Pipeline.arrRef spec2 2)) ?_
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- WHAT POINT `t` WRITES BACK is block `t` of the third stage of the three operand arrays as the grid finds them. -/
theorem flushed_r2 (c : Dev nD) (t : Fin cfg2.N) :
    (dat2 (F := Ideal) V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeroOff2]
  simp only [View.ld_unit_zero (S := S5000x128) zeroOff2, View.ld_unit_zero (S := S5000x1) zeroOff2,
    View.ld_unit_zero (S := S1x128) zeroOff2]
  funext j
  obtain ⟨p, q, rfl⟩ : ∃ (p : Fin 5000) (q : Fin 128), j = ix2 p q := ⟨j 0, j 1, eq_ix2 j⟩
  have ht : t.val < 10 := by have h := t.isLt; have hN : grid2.N = 10 := N_2; exact hN ▸ h
  obtain ⟨-, -, -, -, -, -, e0, e1⟩ := idx_facts_r2 t
  have hemb : ((cfg2.win 3).blk t).view.emb (ix2 p q)
      = (ix2 (⟨t.val * 5000 + p.val, by omega⟩ : Fin 50000) q : S50000x128.Idx) := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 1 t) (iblk2 V c 2 t) (ix2 p q)
    = G2 (V c (Pipeline.arrRef spec2 0)) (V c (Pipeline.arrRef spec2 1)) (V c (Pipeline.arrRef spec2 2))
        (((cfg2.win 3).blk t).view.emb (ix2 p q))
  rw [hemb]
  refine (pay2_apply (iblk2 V c 0 t) (iblk2 V c 1 t) (iblk2 V c 2 t) p q).trans ?_
  rw [blk2_0_apply V c t p q ⟨t.val * 5000 + p.val, by omega⟩ rfl,
    blk2_1_apply V c t p ⟨t.val * 5000 + p.val, by omega⟩ rfl, blk2_2_apply V c t q]
  rfl

/-- An index of the array is in point `t`'s block iff each coordinate is in the block's range on its axis. -/
theorem mem_blk_r2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v40).slice (win2_3.rect t)).set ↔ _
  rw [View.set_slice_whole, Rect.mem_set_unit]
  exact Iff.rfl

/-- Every entry of the array is written: row `r` lies in the block of point `r / 5000`. -/
theorem cover_r2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨-, -, -, -, -, -, e0, e1⟩ := idx_facts_r2 t
  have htv : t.val = (i 0).val / 5000 := rfl
  refine ⟨t, flush2_3 t, ?_⟩
  rw [mem_blk_r2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE ARRAY the third grid leaves: the third stage of its three operand arrays, entry by entry. -/
theorem final2 (c : Dev nD) (r : Fin 50000) (k : Fin 128) :
    (dat2 (F := Ideal) V c).arrAt 3 cfg2.N (ix2 r k)
      = Cert.Gcn.scaleBias (V c (Pipeline.arrRef spec2 0)) (V c (Pipeline.arrRef spec2 1))
          (V c (Pipeline.arrRef spec2 2)) r k := by
  rw [(dat2 (F := Ideal) V c).arrAt_eq_of_cover 3
    (G2 (V c (Pipeline.arrRef spec2 0)) (V c (Pipeline.arrRef spec2 1)) (V c (Pipeline.arrRef spec2 2)))
    (fun t _ => flushed_r2 V c t) cover_r2]

end Cert.KernelIdeal.RegionValue

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.GcnAlgebra.lean ====
/-
  Multiplication by a non-negative real on the extended reals.

  The extended reals are not a semiring: `⊤ + ⊥ = ⊥`, so `(a + b) * x = a * x + b * x` fails for a general `x`
  (take `x = -1`).  For `x` a NON-NEGATIVE REAL NUMBER it does hold, whatever `a` and `b` are, and hence
  multiplication by such an `x` passes through every finite sum.  A graph convolution's per-node scale — the inverse
  square root of the degree where the degree is positive, zero elsewhere — is such a number whatever the degree is
  (`rsqrt ⊤ = 0`, and a non-positive degree selects the zero), so scaling the rows of a neighbourhood sum by it after
  summing equals scaling every term before summing.

  * `IsScale x`        : `x` is the coercion of a non-negative real.
  * `sum_mul_scale`    : `(∑ j ∈ s, a j) * x = ∑ j ∈ s, a j * x` for such an `x`.
  * `isScale_where_rsqrt` : `select (deg > 0) (rsqrt deg) 0` is such a number, for every extended real `deg`.
  * `scaled_sum`       : the one-layer identity: a sum of terms `h j * ds j` scaled by `dr` afterwards is the sum of
                          `h j * (ds j * dd j)` when every `dd j` is `dr`.
-/
import Idealize.ShloMosaic.PureOps.Ideal
import Mathlib.Data.EReal.Operations

noncomputable section

open scoped BigOperators

namespace Cert.Gcn

open Idealize.ShloMosaic

/-- `x` is a non-negative real number (in particular not an infinity). -/
def IsScale (x : EReal) : Prop := ∃ ρ : ℝ, 0 ≤ ρ ∧ x = (ρ : EReal)

theorem IsScale.nonneg {x : EReal} (h : IsScale x) : 0 ≤ x := by
  obtain ⟨ρ, hρ, rfl⟩ := h
  exact_mod_cast hρ

theorem IsScale.ne_top {x : EReal} (h : IsScale x) : x ≠ ⊤ := by
  obtain ⟨ρ, _, rfl⟩ := h
  exact EReal.coe_ne_top ρ

theorem isScale_zero : IsScale 0 := ⟨0, le_rfl, EReal.coe_zero.symm⟩

theorem IsScale.mul {x y : EReal} (hx : IsScale x) (hy : IsScale y) : IsScale (x * y) := by
  obtain ⟨a, ha, rfl⟩ := hx
  obtain ⟨b, hb, rfl⟩ := hy
  exact ⟨a * b, mul_nonneg ha hb, (EReal.coe_mul a b).symm⟩

/-- Multiplication by a non-negative real distributes over a sum of two extended reals, infinities of either sign
    included. -/
theorem add_mul_scale (a b : EReal) {x : EReal} (hx : IsScale x) : (a + b) * x = a * x + b * x :=
  EReal.right_distrib_of_nonneg_of_ne_top hx.nonneg hx.ne_top a b

/-- … and hence over every finite sum. -/
theorem sum_mul_scale {ι : Type*} (s : Finset ι) (a : ι → EReal) {x : EReal} (hx : IsScale x) :
    (∑ j ∈ s, a j) * x = ∑ j ∈ s, a j * x := by
  classical
  induction s using Finset.induction_on with
  | empty => simp
  | insert j s hj ih => rw [Finset.sum_insert hj, Finset.sum_insert hj, add_mul_scale _ _ hx, ih]

/-- The inverse square root of a degree where the degree is positive, zero elsewhere, is a non-negative real for
    EVERY extended real degree: at `⊤` the inverse square root is `0`, at a positive real it is a positive real, and
    everywhere else the zero is selected. -/
theorem isScale_where_rsqrt (deg : EReal) :
    IsScale (Scalar.select (Ideal.cmp .ogt deg 0) (Ideal.rsqrt deg) 0) := by
  induction deg using EReal.rec with
  | bot =>
    have h : Ideal.cmp .ogt (⊥ : EReal) 0 = 0#1 := by simp [Ideal.cmp]
    rw [h]; exact isScale_zero
  | top =>
    have h : Ideal.cmp .ogt (⊤ : EReal) 0 = 1#1 := by simp [Ideal.cmp]
    rw [h]; exact isScale_zero
  | coe r =>
    by_cases hr : 0 < r
    · have h : Ideal.cmp .ogt (r : EReal) 0 = 1#1 := by
        simp [Ideal.cmp, hr]
      rw [h]
      show IsScale (Ideal.rsqrt (r : EReal))
      rw [Ideal.rsqrt_coe, if_neg (not_lt.mpr hr.le), if_neg hr.ne']
      exact ⟨(Real.sqrt r)⁻¹, inv_nonneg.mpr (Real.sqrt_nonneg r), rfl⟩
    · have h : Ideal.cmp .ogt (r : EReal) 0 = 0#1 := by
        simp [Ideal.cmp, hr]
      rw [h]; exact isScale_zero

/-- One layer, abstractly. Terms `h j * ds j` summed over `L` (onto a zero) and the sum scaled by `dr` afterwards,
    against terms `h j * (ds j * dd j)` summed over `L`: equal when `dr` is a non-negative real and every `dd j`
    with `j ∈ L` is `dr`. Nothing is asked of `h` or `ds`. -/
theorem scaled_sum {ι : Type*} (L : Finset ι) (h ds dd : ι → EReal) {dr : EReal} (hdr : IsScale dr)
    (hdd : ∀ j ∈ L, dd j = dr) :
    (0 + ∑ j ∈ L, h j * ds j) * dr = 0 + ∑ j ∈ L, h j * (ds j * dd j) := by
  rw [zero_add, zero_add, sum_mul_scale L _ hdr]
  refine Finset.sum_congr rfl fun j hj => ?_
  rw [hdd j hj, mul_assoc]

end Cert.Gcn

end
-- ==== Proof.GcnBridge.lean ====
/-
  A two-layer graph convolution two ways, index by index over the extended reals.

  The reference gathers the rows of a dense product `H` by source node, multiplies each gathered row by the edge
  norm `dinv[src] * dinv[dst]` and adds the rows up by destination node; then it adds a bias (and, after the first
  layer, rectifies).  Here `dinv` is the inverse square root of a node's degree where the degree is positive and
  zero elsewhere.  The other computation scales row `r` of `H` by `dinv[r]` first, gathers and adds up the scaled
  rows with no per-edge factor, and scales row `r` of the sum by `dinv[r]` again.

  The two agree because (1) an update that the scatter-add lands in row `r` has destination exactly `r` — read as
  a signed integer it is not negative, so normalising it (`idx < 0 ? idx + 50000 : idx`) and clamping it into
  `[0, 49999]` change nothing — hence the edge norm's second factor is `dinv[r]` for every term of row `r`'s sum;
  and (2) `dinv[r]` is a non-negative REAL whatever the degree is (GcnAlgebra), so it may be taken out of a sum of
  extended reals even when infinities of both signs occur among the terms.  Nothing is assumed finite and the
  degree array is never opened.

  Contents: 32-bit row numbers (`rowOf`, `normIdx`); the second layer's recomputed integer columns and scales
  are the first layer's; every node scale is a non-negative real; the integer columns read at an edge; the
  program's gathers and scatter read by coordinates; one layer (`layer_eq`); the reference's dense stages, biases
  and messages read by coordinates; the two layers assembled (`bridge`).
-/
import proofs.«168375_j27633819583001_2_alg».proof.Proof.RefReadP
import proofs.«168375_j27633819583001_2_alg».proof.Proof.GcnSpec
import proofs.«168375_j27633819583001_2_alg».proof.Proof.LibRowIndex
import proofs.«168375_j27633819583001_2_alg».proof.Proof.GcnAlgebra
import Idealize.ShloMosaic.Lib.ValueIdx
import Idealize.ShloMosaic.PureOps.Ideal.Laws

noncomputable section

open scoped BigOperators

namespace Cert.Gcn

open Cert.ReferenceIdeal Cert.ReferenceIdeal.ReadP Idealize.ShloMosaic Idealize.ShloMosaic.ValueIdx Cert.Lib.RowIndex

/-- A float array of shape `S` at the exact instance: a function from indices to extended reals. -/
abbrev Vf (S : Shape) : Type := (⟨S, .f32⟩ : BufTy).Contents (Elt Ideal)
/-- A 32-bit integer array of shape `S`. -/
abbrev Vi (S : Shape) : Type := (⟨S, .i32⟩ : BufTy).Contents (Elt Ideal)

/-! ## Row numbers as 32-bit words -/

/-- The row, among 50000, that a gather reads for the start index `w`: `w` as a signed integer, clamped into
    `[0, 49999]`. -/
def rowOf (w : BitVec 32) : Fin 50000 := ⟨min w.toInt.toNat (50000 - 1), by omega⟩

/-- A possibly negative row number counted from the end: `w + 50000` where `w < 0`, else `w`. -/
def normIdx (w : BitVec 32) : BitVec 32 :=
  Scalar.select (IntOp.cmpi .slt w 0#32) (IntOp.addi w 50000#32) w

/-- A word that, as a signed integer, IS the row `r` is not negative, so it is its own normalisation, and clamping
    changes nothing: the row read is `r`. -/
theorem rowOf_normIdx (w : BitVec 32) (r : Fin 50000) (h : w.toInt = (r.val : Int)) : rowOf (normIdx w) = r := by
  have hs : IntOp.cmpi .slt w 0#32 = 0#1 := by
    have h0 : (0#32 : BitVec 32).toInt = 0 := by decide
    have : w.slt 0#32 = false := by
      rw [BitVec.slt, h0, h]; exact decide_eq_false (by omega)
    show BitVec.ofBool (w.slt 0#32) = 0#1
    rw [this]; rfl
  have hn : normIdx w = w := by
    unfold normIdx; rw [hs]; rfl
  rw [hn]
  refine Fin.ext ?_
  show min w.toInt.toNat (50000 - 1) = r.val
  have := r.isLt
  rw [h]; omega

/-! ## The second layer recomputes the first layer's integer columns and scales

The program computes the edge lists, the degrees and the scales once per layer, under different names; each pair
is the same function of the edge array. Only the stage names are unfolded. -/

section Recomputed
variable {F : FTy → Type} [FloatOps F]

theorem v49_eq : val_main_v49 (F := F) = val_main_v5 (F := F) := by
  unfold val_main_v49 val_main_v5; rfl

theorem v50_eq (x1 : (⟨S2x800000, .i32⟩ : BufTy).Contents (Elt F)) : val_main_v50 (F := F) x1 = val_main_v6 (F := F) x1 := by
  unfold val_main_v50 val_main_v6; rw [v49_eq]

theorem v51_eq (x1 : (⟨S2x800000, .i32⟩ : BufTy).Contents (Elt F)) : val_main_v51 (F := F) x1 = val_main_v7 (F := F) x1 := by
  unfold val_main_v51 val_main_v7; rw [v49_eq]

theorem v85_eq : val_main_v85 (F := F) = val_main_v41 (F := F) := by
  unfold val_main_v85 val_main_v41 val_main_cst_19 val_main_cst_8; rfl

theorem v86_eq (x1 : (⟨S2x800000, .i32⟩ : BufTy).Contents (Elt F)) : val_main_v86 (F := F) x1 = val_main_v42 (F := F) x1 := by
  unfold val_main_v86 val_main_v42; rw [v51_eq]

theorem v55_eq (x1 : (⟨S2x800000, .i32⟩ : BufTy).Contents (Elt F)) : val_main_v55 (F := F) x1 = val_main_v11 (F := F) x1 := by
  unfold val_main_v55 val_main_v11 val_main_v54 val_main_v10 val_main_v53 val_main_v9 val_main_v52 val_main_v8
    val_main_cst_10 val_main_cst_0 val_main_cst_9 val_main_cst
  rw [v51_eq]

theorem v59_eq (x1 : (⟨S2x800000, .i32⟩ : BufTy).Contents (Elt F)) : val_main_v59 (F := F) x1 = val_main_v15 (F := F) x1 := by
  unfold val_main_v59 val_main_v15 val_main_v57 val_main_v13 val_main_v58 val_main_v14 val_main_v56 val_main_v12
    val_main_call2_v1 val_main_call0_v1 val_main_call2_v0 val_main_call0_v0 val_main_cst_11 val_main_cst_1
    val_main_cst_12 val_main_cst_2
  rw [v55_eq]

end Recomputed

/-! ## The scale of a node is a non-negative real -/

/-- The reference's per-node scale — `rsqrt deg` where `deg > 0`, else `0` — is a non-negative real number at
    every node, whatever the degree array holds. The degree array is not opened. -/
theorem dv_isScale (x1 : Vi S2x800000) (r : Fin 50000) : IsScale (val_main_v15 (F := Ideal) x1 (ix1 r)) := by
  rw [val_main_v15_apply, val_main_v13_apply, val_main_v14_apply, val_main_v12_apply, val_main_cst_1_apply,
    val_main_call0_v1_apply, val_main_call0_v0_apply, val_main_cst_2_apply]
  generalize val_main_v11 (F := Ideal) x1 (ix1 r) = deg
  simp only [Ideal.cmpf_def, Ideal.hostUnary_rsqrt_def, Ideal.ofBits_def, Ideal.ofBits_zero_f32]
  exact isScale_where_rsqrt deg

/-! ## The integer columns read at an edge

Each index column `[850000, 1]` is a broadcast of a vector `[850000]`; the three that feed a gather are normalised
first (`idx < 0 ? idx + 50000 : idx`), the one that feeds the scatter is not. -/

/-- The source column the rows are gathered by: the normalised source list. -/
theorem v36_at (x1 : Vi S2x800000) (e : Fin 850000) :
    val_main_v36 (F := Ideal) x1 (ix2 e (0 : Fin 1)) = normIdx (val_main_v6 (F := Ideal) x1 (ix1 e)) := by
  rw [val_main_v36_apply]
  have hi : idx_main_v36 (ix2 e (0 : Fin 1)) = ix1 e := funext fun a => Fin.ext (by match a with | ⟨0, _⟩ => rfl)
  rw [hi, val_main_v35_apply, val_main_v32_apply, val_main_v34_apply, val_main_v31_apply, val_main_v33_apply,
    val_main_c_6_apply, val_main_c_7_apply]
  unfold normIdx; rfl

/-- The source column the scales are gathered by: the normalised source list again. -/
theorem v21_at (x1 : Vi S2x800000) (e : Fin 850000) :
    val_main_v21 (F := Ideal) x1 (ix2 e (0 : Fin 1)) = normIdx (val_main_v6 (F := Ideal) x1 (ix1 e)) := by
  rw [val_main_v21_apply]
  have hi : idx_main_v21 (ix2 e (0 : Fin 1)) = ix1 e := funext fun a => Fin.ext (by match a with | ⟨0, _⟩ => rfl)
  rw [hi, val_main_v20_apply, val_main_v17_apply, val_main_v19_apply, val_main_v16_apply, val_main_v18_apply,
    val_main_c_apply, val_main_c_3_apply]
  unfold normIdx; rfl

/-- The destination column the scales are gathered by: the normalised destination list. -/
theorem v28_at (x1 : Vi S2x800000) (e : Fin 850000) :
    val_main_v28 (F := Ideal) x1 (ix2 e (0 : Fin 1)) = normIdx (val_main_v7 (F := Ideal) x1 (ix1 e)) := by
  rw [val_main_v28_apply]
  have hi : idx_main_v28 (ix2 e (0 : Fin 1)) = ix1 e := funext fun a => Fin.ext (by match a with | ⟨0, _⟩ => rfl)
  rw [hi, val_main_v27_apply, val_main_v24_apply, val_main_v26_apply, val_main_v23_apply, val_main_v25_apply,
    val_main_c_4_apply, val_main_c_5_apply]
  unfold normIdx; rfl

/-- The destination column the messages are scattered by: the destination list as it is. -/
theorem v42_at (x1 : Vi S2x800000) (e : Fin 850000) :
    val_main_v42 (F := Ideal) x1 (ix2 e (0 : Fin 1)) = val_main_v7 (F := Ideal) x1 (ix1 e) := by
  rw [val_main_v42_apply]
  have hi : idx_main_v42 (ix2 e (0 : Fin 1)) = ix1 e := funext fun a => Fin.ext (by match a with | ⟨0, _⟩ => rfl)
  rw [hi]

/-- The second layer's three gather columns, likewise. -/
theorem v80_at (x1 : Vi S2x800000) (e : Fin 850000) :
    val_main_v80 (F := Ideal) x1 (ix2 e (0 : Fin 1)) = normIdx (val_main_v6 (F := Ideal) x1 (ix1 e)) := by
  rw [val_main_v80_apply]
  have hi : idx_main_v80 (ix2 e (0 : Fin 1)) = ix1 e := funext fun a => Fin.ext (by match a with | ⟨0, _⟩ => rfl)
  rw [hi, val_main_v79_apply, val_main_v76_apply, val_main_v78_apply, val_main_v75_apply, val_main_v77_apply,
    val_main_c_17_apply, val_main_c_18_apply, v50_eq]
  unfold normIdx; rfl

theorem v65_at (x1 : Vi S2x800000) (e : Fin 850000) :
    val_main_v65 (F := Ideal) x1 (ix2 e (0 : Fin 1)) = normIdx (val_main_v6 (F := Ideal) x1 (ix1 e)) := by
  rw [val_main_v65_apply]
  have hi : idx_main_v65 (ix2 e (0 : Fin 1)) = ix1 e := funext fun a => Fin.ext (by match a with | ⟨0, _⟩ => rfl)
  rw [hi, val_main_v64_apply, val_main_v61_apply, val_main_v63_apply, val_main_v60_apply, val_main_v62_apply,
    val_main_c_13_apply, val_main_c_14_apply, v50_eq]
  unfold normIdx; rfl

theorem v72_at (x1 : Vi S2x800000) (e : Fin 850000) :
    val_main_v72 (F := Ideal) x1 (ix2 e (0 : Fin 1)) = normIdx (val_main_v7 (F := Ideal) x1 (ix1 e)) := by
  rw [val_main_v72_apply]
  have hi : idx_main_v72 (ix2 e (0 : Fin 1)) = ix1 e := funext fun a => Fin.ext (by match a with | ⟨0, _⟩ => rfl)
  rw [hi, val_main_v71_apply, val_main_v68_apply, val_main_v70_apply, val_main_v67_apply, val_main_v69_apply,
    val_main_c_15_apply, val_main_c_16_apply, v51_eq]
  unfold normIdx; rfl

/-! ## The program's gathers and its scatter, read by coordinates -/

/-- A gather of rows of a `[50000, 128]` matrix by a column of start indices: element `(e, c)` is the matrix at the
    row the start index names and column `c`. -/
theorem rowGather_at {α : Type} (x : S50000x128.Idx → α) (idx : Vi S850000x1) (e : Fin 850000) (c : Fin 128) :
    Host.gather gather_S50000x128_S850000x1_S850000x128_1_0_n_n_0_1_1128 x idx (ix2 e c)
      = x (ix2 (rowOf (idx (ix2 e (0 : Fin 1)))) c) :=
  (show Host.gather gather_S50000x128_S850000x1_S850000x128_1_0_n_n_0_1_1128 x idx (ix2 e c)
      = Host.gather (rowGatherDims 50000 128 850000 Gen.gather_S50000x128_S850000x1_S850000x128_1_0_n_n_0_1_1128_wf) x idx (ix2 e c)
    from rfl).trans
    (rowGather_apply (N := 50000) (C := 128) (E := 850000) (by decide)
      Gen.gather_S50000x128_S850000x1_S850000x128_1_0_n_n_0_1_1128_wf x idx e c)

/-- A gather of entries of a `[50000]` vector by a column of start indices: element `e` is the vector at the
    position the start index names. -/
theorem vecGather_at {α : Type} (x : S50000.Idx → α) (idx : Vi S850000x1) (e : Fin 850000) :
    Host.gather gather_S50000_S850000x1_S850000_n_0_n_n_0_1_1 x idx (ix1 e)
      = x (ix1 (rowOf (idx (ix2 e (0 : Fin 1))))) :=
  (show Host.gather gather_S50000_S850000x1_S850000_n_0_n_n_0_1_1 x idx (ix1 e)
      = Host.gather (vecGatherDims 50000 850000 Gen.gather_S50000_S850000x1_S850000_n_0_n_n_0_1_1_wf) x idx (ix1 e)
    from rfl).trans
    (vecGather_apply (N := 50000) (E := 850000) (by decide)
      Gen.gather_S50000_S850000x1_S850000_n_0_n_n_0_1_1_wf x idx e)

/-- An update `(e, c')` that the row scatter lands at `(r, c)` has destination word `r`, as a signed integer. -/
theorem rowScatter_at (idx : Vi S850000x1) (e : Fin 850000) (c' : Fin 128) (r : Fin 50000) (c : Fin 128)
    (h : scatter_S50000x128_S850000x1_S850000x128_1_0_0_1.resultIdx? (ix2 e c') idx = some (ix2 r c)) :
    (idx (ix2 e (0 : Fin 1))).toInt = (r.val : Int) :=
  rowScatter_row (N := 50000) (C := 128) (E := 850000) Gen.scatter_S50000x128_S850000x1_S850000x128_1_0_0_1_wf
    idx (ix2 e c') (ix2 r c) h

/-! ## One layer: scaling the rows before the gather and after the scatter-add

`H` is the layer's dense product, `O` its rows scaled by the column `D` of node scales, `dvec` the same scales as a
vector. Gathering rows of `O` by source, adding them up by destination and scaling row `r` by `D r` once more gives
what the reference computes: rows of `H` gathered by source, each multiplied by the edge norm
`dvec (src) * dvec (dst)`, added up by destination. An update that lands in row `r` has destination `r`, so its edge
norm's second factor is `D r`, a non-negative real, which may be taken out of the sum. -/
theorem layer_eq
    (H O : Vf S50000x128) (D : SCol.Idx → EReal) (dvec : Vf S50000) (z : Vf S50000x128)
    (dst srcG srcN dstN : Vi S850000x1) (msgs : Vf S850000x128)
    (hz : ∀ i, z i = 0)
    (hD : ∀ r : Fin 50000, D (ix2 r (0 : Fin 1)) = dvec (ix1 r))
    (hsc : ∀ r : Fin 50000, IsScale (dvec (ix1 r)))
    (hO : ∀ (r : Fin 50000) (c : Fin 128), O (ix2 r c) = H (ix2 r c) * D (ix2 r (0 : Fin 1)))
    (hsrcN : ∀ e : Fin 850000, srcN (ix2 e (0 : Fin 1)) = srcG (ix2 e (0 : Fin 1)))
    (hdstN : ∀ e : Fin 850000, dstN (ix2 e (0 : Fin 1)) = normIdx (dst (ix2 e (0 : Fin 1))))
    (hmsgs : ∀ (e : Fin 850000) (c : Fin 128), msgs (ix2 e c)
      = H (ix2 (rowOf (srcG (ix2 e (0 : Fin 1)))) c)
          * (dvec (ix1 (rowOf (srcN (ix2 e (0 : Fin 1))))) * dvec (ix1 (rowOf (dstN (ix2 e (0 : Fin 1)))))))
    (r : Fin 50000) (c : Fin 128) :
    Host.scatterAdd (F := Ideal) (φ := .f32) scatter_S50000x128_S850000x1_S850000x128_1_0_0_1 z dst
        (Host.gather gather_S50000x128_S850000x1_S850000x128_1_0_n_n_0_1_1128 O srcG) (ix2 r c) * D (ix2 r (0 : Fin 1))
      = Host.scatterAdd (F := Ideal) (φ := .f32) scatter_S50000x128_S850000x1_S850000x128_1_0_0_1 z dst msgs (ix2 r c) := by
  unfold Host.scatterAdd
  rw [Ideal.hostScatterAdd_def, Ideal.hostScatterAdd_def]
  unfold Ideal.hostScatterAdd
  beta_reduce
  rw [hz, zero_add, zero_add, hD, sum_mul_scale _ _ (hsc r)]
  refine Finset.sum_congr rfl fun j hj => ?_
  obtain ⟨e, c', rfl⟩ : ∃ (e : Fin 850000) (c' : Fin 128), j = ix2 e c' := ⟨j 0, j 1, eq_ix2 j⟩
  have hrow : (dst (ix2 e (0 : Fin 1))).toInt = (r.val : Int) :=
    rowScatter_at dst e c' r c (Finset.mem_filter.mp hj).2
  rw [rowGather_at, hO, hD, hmsgs, hsrcN, hdstN, rowOf_normIdx _ r hrow, mul_assoc]

/-! ## The reference's dense stages, biases and zeros read by coordinates -/

/-- The first dense product is `lin`. -/
theorem v4_at (x0 : Vf S50000x128) (x2 : Vf S128x128) (r : Fin 50000) (c : Fin 128) :
    val_main_v4 (F := Ideal) x0 x2 (ix2 r c) = lin x0 x2 r c := by
  rw [val_main_v4_apply]
  unfold lin
  refine Finset.sum_congr rfl fun k _ => ?_
  have hl : lidx_main_v4 (ix2 r c) k = ix2 r k :=
    funext fun a => Fin.ext (by match a with | ⟨0, _⟩ => rfl | ⟨1, _⟩ => rfl)
  have hr : ridx_main_v4 (ix2 r c) k = ix2 k c :=
    funext fun a => Fin.ext (by match a with | ⟨0, _⟩ => rfl | ⟨1, _⟩ => rfl)
  rw [hl, hr]

/-- The zero array both scatters add into. -/
theorem v41_at (i : S50000x128.Idx) : val_main_v41 (F := Ideal) i = 0 := by
  rw [val_main_v41_apply, val_main_cst_8_apply]
  simp only [Ideal.ofBits_def, Ideal.ofBits_zero_f32]

/-- The zero array the rectifier compares with. -/
theorem call1_v0_at (i : S50000x128.Idx) : val_main_call1_v0 (F := Ideal) i = 0 := by
  rw [val_main_call1_v0_apply, val_main_call1_cst_apply]
  simp only [Ideal.ofBits_def, Ideal.ofBits_zero_f32]

/-- The first bias, broadcast over the rows. -/
theorem v45_at (x3 : Vf S128) (r : Fin 50000) (k : Fin 128) : val_main_v45 (F := Ideal) x3 (ix2 r k) = x3 (ix1 k) := by
  rw [val_main_v45_apply, val_main_v44_apply]
  have h : idx_main_v44 (idx_main_v45 (ix2 r k)) = ix1 k :=
    funext fun a => Fin.ext (by match a with | ⟨0, _⟩ => rfl)
  rw [h]

/-- The second bias, broadcast over the rows. -/
theorem v89_at (x5 : Vf S128) (r : Fin 50000) (k : Fin 128) : val_main_v89 (F := Ideal) x5 (ix2 r k) = x5 (ix1 k) := by
  rw [val_main_v89_apply, val_main_v88_apply]
  have h : idx_main_v88 (idx_main_v89 (ix2 r k)) = ix1 k :=
    funext fun a => Fin.ext (by match a with | ⟨0, _⟩ => rfl)
  rw [h]

/-- The first layer's messages: the gathered row of the dense product times the edge norm. -/
theorem v40_at (x0 : Vf S50000x128) (x1 : Vi S2x800000) (x2 : Vf S128x128) (e : Fin 850000) (c : Fin 128) :
    val_main_v40 (F := Ideal) x0 x1 x2 (ix2 e c)
      = val_main_v4 (F := Ideal) x0 x2 (ix2 (rowOf (val_main_v36 (F := Ideal) x1 (ix2 e (0 : Fin 1)))) c)
          * (val_main_v15 (F := Ideal) x1 (ix1 (rowOf (val_main_v21 (F := Ideal) x1 (ix2 e (0 : Fin 1)))))
              * val_main_v15 (F := Ideal) x1 (ix1 (rowOf (val_main_v28 (F := Ideal) x1 (ix2 e (0 : Fin 1)))))) := by
  rw [val_main_v40_apply, val_main_v39_apply]
  have h39 : idx_main_v39 (ix2 e c) = ix2 e (0 : Fin 1) :=
    funext fun a => Fin.ext (by match a with | ⟨0, _⟩ => rfl | ⟨1, _⟩ => rfl)
  rw [h39, val_main_v38_apply]
  have h38 : idx_main_v38 (ix2 e (0 : Fin 1)) = ix1 e :=
    funext fun a => Fin.ext (by match a with | ⟨0, _⟩ => rfl)
  rw [h38, val_main_v30_apply]
  unfold val_main_v37 val_main_v22 val_main_v29
  rw [rowGather_at, vecGather_at, vecGather_at]
  simp only [Ideal.mulf_def]

/-- The second layer's messages, likewise. -/
theorem v84_at (x0 : Vf S50000x128) (x1 : Vi S2x800000) (x2 : Vf S128x128) (x3 : Vf S128) (x4 : Vf S128x128)
    (e : Fin 850000) (c : Fin 128) :
    val_main_v84 (F := Ideal) x0 x1 x2 x3 x4 (ix2 e c)
      = val_main_v48 (F := Ideal) x0 x1 x2 x3 x4 (ix2 (rowOf (val_main_v80 (F := Ideal) x1 (ix2 e (0 : Fin 1)))) c)
          * (val_main_v59 (F := Ideal) x1 (ix1 (rowOf (val_main_v65 (F := Ideal) x1 (ix2 e (0 : Fin 1)))))
              * val_main_v59 (F := Ideal) x1 (ix1 (rowOf (val_main_v72 (F := Ideal) x1 (ix2 e (0 : Fin 1)))))) := by
  rw [val_main_v84_apply, val_main_v83_apply]
  have h83 : idx_main_v83 (ix2 e c) = ix2 e (0 : Fin 1) :=
    funext fun a => Fin.ext (by match a with | ⟨0, _⟩ => rfl | ⟨1, _⟩ => rfl)
  rw [h83, val_main_v82_apply]
  have h82 : idx_main_v82 (ix2 e (0 : Fin 1)) = ix1 e :=
    funext fun a => Fin.ext (by match a with | ⟨0, _⟩ => rfl)
  rw [h82, val_main_v74_apply]
  unfold val_main_v81 val_main_v66 val_main_v73
  rw [rowGather_at, vecGather_at, vecGather_at]
  simp only [Ideal.mulf_def]

/-! ## The two layers -/

section Layers
variable (x0 : Vf S50000x128) (x1 : Vi S2x800000) (x2 x4 : Vf S128x128) (x3 x5 : Vf S128)
  (D : SCol.Idx → EReal) (hD : ∀ r : Fin 50000, D (ix2 r (0 : Fin 1)) = val_main_v15 (F := Ideal) x1 (ix1 r))
  (B1 : SRow.Idx → EReal) (hB1 : ∀ k : Fin 128, B1 (ix2 (0 : Fin 1) k) = x3 (ix1 k))
  (O0 A1 : SNode.Idx → EReal)
  (hO0 : ∀ r k, O0 (ix2 r k) = scaledLin x0 x2 D r k)
  (hA1 : A1 = Host.scatterAdd (F := Ideal) (φ := .f32) scatter_S50000x128_S850000x1_S850000x128_1_0_0_1
      (val_main_v41 (F := Ideal)) (val_main_v42 (F := Ideal) x1)
      (Host.gather gather_S50000x128_S850000x1_S850000x128_1_0_n_n_0_1_1128 O0 (val_main_v36 (F := Ideal) x1)))
include hD hB1 hO0 hA1

/-- The first aggregation, scaled back and biased, is the reference's first layer before the rectifier. -/
theorem first_layer (r : Fin 50000) (k : Fin 128) :
    A1 (ix2 r k) * D (ix2 r (0 : Fin 1)) + B1 (ix2 (0 : Fin 1) k)
      = val_main_v46 (F := Ideal) x0 x1 x2 x3 (ix2 r k) := by
  have key : A1 (ix2 r k) * D (ix2 r (0 : Fin 1)) = val_main_v43 (F := Ideal) x0 x1 x2 (ix2 r k) := by
    rw [hA1]
    unfold val_main_v43
    exact layer_eq (val_main_v4 (F := Ideal) x0 x2) O0 D (val_main_v15 (F := Ideal) x1) (val_main_v41 (F := Ideal))
      (val_main_v42 (F := Ideal) x1) (val_main_v36 (F := Ideal) x1) (val_main_v21 (F := Ideal) x1)
      (val_main_v28 (F := Ideal) x1) (val_main_v40 (F := Ideal) x0 x1 x2)
      v41_at hD (dv_isScale x1)
      (fun r c => by rw [hO0, v4_at]; rfl)
      (fun e => by rw [v21_at, v36_at])
      (fun e => by rw [v28_at, v42_at])
      (v40_at x0 x1 x2) r k
  rw [val_main_v46_apply, Ideal.addf_def, v45_at, hB1 k, key]

/-- … and rectified it is the reference's first layer. -/
theorem first_act (r : Fin 50000) (k : Fin 128) :
    act A1 D B1 r k = val_main_v47 (F := Ideal) x0 x1 x2 x3 (ix2 r k) := by
  rw [val_main_v47_apply, Ideal.maximumf_def, call1_v0_at,
    ← first_layer x0 x1 x2 x3 D hD B1 hB1 O0 A1 hO0 hA1 r k]
  rfl

/-- The second dense product of the reference is the sum the second stage forms. -/
theorem second_lin (r : Fin 50000) (c : Fin 128) :
    val_main_v48 (F := Ideal) x0 x1 x2 x3 x4 (ix2 r c) = ∑ k : Fin 128, act A1 D B1 r k * x4 (ix2 k c) := by
  rw [val_main_v48_apply]
  refine Finset.sum_congr rfl fun k _ => ?_
  have hl : lidx_main_v48 (ix2 r c) k = ix2 r k :=
    funext fun a => Fin.ext (by match a with | ⟨0, _⟩ => rfl | ⟨1, _⟩ => rfl)
  have hr : ridx_main_v48 (ix2 r c) k = ix2 k c :=
    funext fun a => Fin.ext (by match a with | ⟨0, _⟩ => rfl | ⟨1, _⟩ => rfl)
  rw [hl, hr, first_act x0 x1 x2 x3 D hD B1 hB1 O0 A1 hO0 hA1 r k]

end Layers

/-- **The bridge.** A two-layer graph convolution computed as "scale the rows, gather by source, add up by
    destination, scale the rows again" — `O0`, `A1`, `O1`, `A2` the two dense stages' outputs and the two
    aggregations, `D` the column of node scales, `B1`, `B2` the bias rows — ends, after the last scaling and bias,
    in the reference's result: gather by source, multiply each message by its edge norm, add up by destination. -/
theorem bridge (x0 : Vf S50000x128) (x1 : Vi S2x800000) (x2 x4 : Vf S128x128) (x3 x5 : Vf S128)
    (D : SCol.Idx → EReal) (hD : ∀ r : Fin 50000, D (ix2 r (0 : Fin 1)) = val_main_v15 (F := Ideal) x1 (ix1 r))
    (B1 B2 : SRow.Idx → EReal) (hB1 : ∀ k : Fin 128, B1 (ix2 (0 : Fin 1) k) = x3 (ix1 k))
    (hB2 : ∀ k : Fin 128, B2 (ix2 (0 : Fin 1) k) = x5 (ix1 k))
    (O0 A1 O1 A2 : SNode.Idx → EReal)
    (hO0 : ∀ r k, O0 (ix2 r k) = scaledLin x0 x2 D r k)
    (hA1 : A1 = Host.scatterAdd (F := Ideal) (φ := .f32) scatter_S50000x128_S850000x1_S850000x128_1_0_0_1
        (val_main_v41 (F := Ideal)) (val_main_v42 (F := Ideal) x1)
        (Host.gather gather_S50000x128_S850000x1_S850000x128_1_0_n_n_0_1_1128 O0 (val_main_v36 (F := Ideal) x1)))
    (hO1 : ∀ r k, O1 (ix2 r k) = actScaledLin A1 D B1 x4 r k)
    (hA2 : A2 = Host.scatterAdd (F := Ideal) (φ := .f32) scatter_S50000x128_S850000x1_S850000x128_1_0_0_1
        (val_main_v41 (F := Ideal)) (val_main_v42 (F := Ideal) x1)
        (Host.gather gather_S50000x128_S850000x1_S850000x128_1_0_n_n_0_1_1128 O1 (val_main_v36 (F := Ideal) x1)))
    (r : Fin 50000) (c : Fin 128) :
    scaleBias A2 D B2 r c = val_main_v90 (F := Ideal) x0 x1 x2 x3 x4 x5 (ix2 r c) := by
  have key : A2 (ix2 r c) * D (ix2 r (0 : Fin 1)) = val_main_v87 (F := Ideal) x0 x1 x2 x3 x4 (ix2 r c) := by
    rw [hA2]
    unfold val_main_v87
    rw [v85_eq, v86_eq]
    exact layer_eq (val_main_v48 (F := Ideal) x0 x1 x2 x3 x4) O1 D (val_main_v15 (F := Ideal) x1)
      (val_main_v41 (F := Ideal)) (val_main_v42 (F := Ideal) x1) (val_main_v36 (F := Ideal) x1)
      (val_main_v65 (F := Ideal) x1) (val_main_v72 (F := Ideal) x1) (val_main_v84 (F := Ideal) x0 x1 x2 x3 x4)
      v41_at hD (dv_isScale x1)
      (fun r c => by
        rw [hO1, second_lin x0 x1 x2 x4 x3 D hD B1 hB1 O0 A1 hO0 hA1 r c]; rfl)
      (fun e => by rw [v65_at, v36_at])
      (fun e => by rw [v72_at, v42_at])
      (fun e c => by rw [v84_at, v80_at, v36_at, v59_eq])
      r c
  unfold scaleBias
  rw [val_main_v90_apply, Ideal.addf_def, v89_at, hB2 c, key]

end Cert.Gcn

end
-- ==== Proof.KValue.lean ====
/-
  The idealized kernel's result array, entry by entry, is the reference's last stage.

  The last boundary's contents at the result buffer are region 2's output array: an aggregated array scaled back by
  the nodes' scales and biased.  That aggregated array is the scatter-add of the rows gathered from region 1's output;
  region 1's output is the rectified first layer times the second weight matrix, rows scaled; its aggregated operand is
  the scatter-add of the rows gathered from region 0's output, the features times the first weight matrix, rows scaled.
  The bridge between "scale the rows, aggregate, scale again" and the reference's "aggregate the rows times the
  per-edge norm" does the rest.
-/
import proofs.«168375_j27633819583001_2_alg».proof.Proof.KHost
import proofs.«168375_j27633819583001_2_alg».proof.Proof.KRegion0
import proofs.«168375_j27633819583001_2_alg».proof.Proof.KRegion1
import proofs.«168375_j27633819583001_2_alg».proof.Proof.KRegion2
import proofs.«168375_j27633819583001_2_alg».proof.Proof.GcnBridge
import proofs.«168375_j27633819583001_2_alg».proof.Proof.LibKeepdims
import Idealize.ShloMosaic.Lib.ValueLayout

set_option maxRecDepth 16384

noncomputable section

namespace Cert.KernelIdeal.KernelValue

open Cert.KernelIdeal Cert.KernelIdeal.Gen Cert.KernelIdeal.HostValue Cert.KernelIdeal.RegionValue
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Region 0 leaves the features times the first weights, row `r` scaled by node `r`'s scale. -/
theorem out0 (r : Fin 50000) (k : Fin 128) :
    W4 m ρ c (Proc.devRef .tc main_v16) (ix2 r k)
      = Cert.Gcn.scaledLin (m ((c.tc : Thread nD τ).loc main_arg0)) (m ((c.tc : Thread nD τ).loc main_arg2)) (Dcol (m ((c.tc : Thread nD τ).loc main_arg1))) r k := by
  rw [show W4 m ρ c (Proc.devRef .tc main_v16) = (dat0 (V3 m ρ) c).arrAt 3 cfg0.N from W4_arr m ρ c 3]
  rw [final0 (V3 m ρ) c r k]
  rw [show V3 m ρ c (Pipeline.arrRef spec0 0) = (m ((c.tc : Thread nD τ).loc main_arg0)) from W3_arg0 m ρ c,
    show V3 m ρ c (Pipeline.arrRef spec0 1) = (m ((c.tc : Thread nD τ).loc main_arg2)) from W3_arg2 m ρ c,
    show V3 m ρ c (Pipeline.arrRef spec0 2) = Dcol (m ((c.tc : Thread nD τ).loc main_arg1)) from W3_v15 m ρ c]

/-- Region 1 leaves the rectified first layer times the second weights, row `r` scaled by node `r`'s scale. -/
theorem out1 (r : Fin 50000) (k : Fin 128) :
    W6 m ρ c (Proc.devRef .tc main_v28) (ix2 r k)
      = Cert.Gcn.actScaledLin (agg (m ((c.tc : Thread nD τ).loc main_arg1)) (W4 m ρ c (Proc.devRef .tc main_v16))) (Dcol (m ((c.tc : Thread nD τ).loc main_arg1)))
          (shapeCast S1x128 (m ((c.tc : Thread nD τ).loc main_arg3)) shapeCasts_S128_S1x128) (m ((c.tc : Thread nD τ).loc main_arg4)) r k := by
  rw [show W6 m ρ c (Proc.devRef .tc main_v28) = (dat1 (V5 m ρ) c).arrAt 4 cfg1.N from W6_arr m ρ c 4]
  rw [final1 (V5 m ρ) c r k]
  rw [show V5 m ρ c (Pipeline.arrRef spec1 0) = agg (m ((c.tc : Thread nD τ).loc main_arg1)) (W4 m ρ c (Proc.devRef .tc main_v16)) from W5_v26 m ρ c,
    show V5 m ρ c (Pipeline.arrRef spec1 1) = Dcol (m ((c.tc : Thread nD τ).loc main_arg1)) from W5_v15 m ρ c,
    show V5 m ρ c (Pipeline.arrRef spec1 2) = shapeCast S1x128 (m ((c.tc : Thread nD τ).loc main_arg3)) shapeCasts_S128_S1x128 from W5_v27 m ρ c,
    show V5 m ρ c (Pipeline.arrRef spec1 3) = (m ((c.tc : Thread nD τ).loc main_arg4)) from W5_arg4 m ρ c]

/-- The result buffer's last contents, entry `(r, k)`, are the reference's last stage at `(r, k)`. -/
theorem value (r : Fin 50000) (k : Fin 128) :
    W8 m ρ c (Proc.devRef .tc main_v40) (ix2 r k)
      = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r k) := by
  rw [show W8 m ρ c (Proc.devRef .tc main_v40) = (dat2 (V7 m ρ) c).arrAt 3 cfg2.N from W8_arr m ρ c 3]
  rw [final2 (V7 m ρ) c r k]
  rw [show V7 m ρ c (Pipeline.arrRef spec2 0) = agg (m ((c.tc : Thread nD τ).loc main_arg1)) (W6 m ρ c (Proc.devRef .tc main_v28)) from W7_v38 m ρ c,
    show V7 m ρ c (Pipeline.arrRef spec2 1) = Dcol (m ((c.tc : Thread nD τ).loc main_arg1)) from W7_v15 m ρ c,
    show V7 m ρ c (Pipeline.arrRef spec2 2) = shapeCast S1x128 (m ((c.tc : Thread nD τ).loc main_arg5)) shapeCasts_S128_S1x128 from W7_v39 m ρ c]
  exact Cert.Gcn.bridge (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5))
    (Dcol (m ((c.tc : Thread nD τ).loc main_arg1))) (fun r => Cert.LibKeepdims.shapeCast_a_a1_apply _ _ r 0)
    (shapeCast S1x128 (m ((c.tc : Thread nD τ).loc main_arg3)) shapeCasts_S128_S1x128) (shapeCast S1x128 (m ((c.tc : Thread nD τ).loc main_arg5)) shapeCasts_S128_S1x128)
    (fun k => shapeCast_a_1a_apply _ _ 0 k) (fun k => shapeCast_a_1a_apply _ _ 0 k)
    (W4 m ρ c (Proc.devRef .tc main_v16)) (agg (m ((c.tc : Thread nD τ).loc main_arg1)) (W4 m ρ c (Proc.devRef .tc main_v16)))
    (W6 m ρ c (Proc.devRef .tc main_v28)) (agg (m ((c.tc : Thread nD τ).loc main_arg1)) (W6 m ρ c (Proc.devRef .tc main_v28)))
    (out0 m ρ c) rfl (out1 m ρ c) rfl r k

end Cert.KernelIdeal.KernelValue

end
-- ==== Proof.RefValue.lean ====
/-
  The reference's run ends with its result buffer at the last stage's value.

  The run of the reference's @main states its result as one composed term of the argument arrays; read one operation
  at a time, the same term is the nest of stage functions, the last stage `val_main_v90` (the second layer's
  scatter-add plus its bias) outermost.  The two are one term once the stages' definitions are opened.
-/
import proofs.«168375_j27633819583001_2_alg».proof.Proof.RefRunP
import proofs.«168375_j27633819583001_2_alg».proof.Proof.RefReadP

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The run's composed result term is the last stage applied to the argument arrays. -/
theorem res_eq (m : (ℓ : Loc nD τ sig) → Buf (Elt F) ℓ) (c : Dev nD) :
    Cert.ReferenceIdeal.ValueP.res_main_v90 m c
      = Cert.ReferenceIdeal.ReadP.val_main_v90 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  unfold Cert.ReferenceIdeal.ValueP.res_main_v90; rfl

end Cert.ReferenceIdeal.RefValue

end
-- ==== Proof.lean ====
/- The proof of `Cert.Claim`: a two-layer graph convolution over 50000 nodes and 850000 edges (800000 given, one self loop per
   node), computed by three row-blocked kernels with the edge gathers and scatter-adds between them, against the plain
   reference.

   Per layer the kernel scales the rows of `X W` by the nodes' scales `d` (the inverse square roots of the in-degrees) BEFORE
   the rows are gathered by source and added up by destination, and scales the aggregated rows by `d` again afterwards; the
   reference multiplies each gathered row by the per-edge norm `d[src] * d[dst]` and adds up.  Every update that lands on node
   `r` has destination `r`, so its norm is `d[src] * d[r]`; a node's scale is always a NON-NEGATIVE REAL (the inverse square
   root where the degree is positive, zero elsewhere), and multiplication by a non-negative real distributes over every sum
   of extended reals.  So the two agree entry by entry, whatever the features and weights hold: the precondition is not used.

   The frames of the two kernel programs are the generated frame certificates; the reference's frame is its run with the
   result dropped; no operation was rewritten by the idealization, so `preserves` is trivial.  The modules:
   Proof/KRun.lean (the kernel's run with every buffer named at the end), Proof/KRegion0–2.lean with Proof/KBlockProduct.lean
   (each region's output array as one function of its operand arrays), Proof/KHost.lean (the host operations between the
   regions), Proof/KValue.lean (the result entry by entry), Proof/GcnSpec.lean, Proof/GcnAlgebra.lean, Proof/GcnBridge.lean (the
   mathematics), Proof/RefValue.lean (the reference's result as its last stage), over the run and the stage-by-stage
   reading of the reference (Proof/RefRunP.lean, Proof/RefReadP.lean). -/
import proofs.«168375_j27633819583001_2_alg».proof.Defs
import proofs.«168375_j27633819583001_2_alg».proof.Proof.Gen.Kernel
import proofs.«168375_j27633819583001_2_alg».proof.Proof.Gen.Kernel.Skeleton
import proofs.«168375_j27633819583001_2_alg».proof.Proof.Gen.Kernel.Launch
import proofs.«168375_j27633819583001_2_alg».proof.Proof.Gen.Kernel.Points
import proofs.«168375_j27633819583001_2_alg».proof.Proof.Gen.Kernel.Frame
import proofs.«168375_j27633819583001_2_alg».proof.Proof.Gen.KernelIdeal
import proofs.«168375_j27633819583001_2_alg».proof.Proof.Gen.KernelIdeal.Skeleton
import proofs.«168375_j27633819583001_2_alg».proof.Proof.Gen.KernelIdeal.Launch
import proofs.«168375_j27633819583001_2_alg».proof.Proof.Gen.KernelIdeal.Points
import proofs.«168375_j27633819583001_2_alg».proof.Proof.Gen.KernelIdeal.Frame
import proofs.«168375_j27633819583001_2_alg».proof.Proof.Gen.ReferenceIdeal
import proofs.«168375_j27633819583001_2_alg».proof.Proof.Gen.Pre_finite_inputs
import proofs.«168375_j27633819583001_2_alg».proof.Proof.KRun
import proofs.«168375_j27633819583001_2_alg».proof.Proof.KValue
import proofs.«168375_j27633819583001_2_alg».proof.Proof.RefRunP
import proofs.«168375_j27633819583001_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the result array at the kernel's last boundary contents: the kernel by its run, the
    reference because its last stage, entry by entry, is that array (`KernelValue.value`), the arguments agreeing. -/
theorem algebraic : Cert.algebraic_KernelIdeal_ReferenceIdeal := by
  intro m ρ m' ρ' _ hagree
  refine ⟨fun c => Cert.KernelIdeal.Gen.W8 m ρ c (Proc.devRef .tc Cert.KernelIdeal.main_v40), ?_, ?_⟩
  · exact (θ_run Cert.KernelIdeal.defs _ _).mono (fun r h c =>
      ⟨h c _ (Cert.KernelIdeal.Gen.mem_uc Cert.KernelIdeal.main_v40 (by decide)),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c)⟩)
      (Cert.KernelIdeal.RunValue.run_all m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]
    funext i
    obtain ⟨r, k, rfl⟩ : ∃ (r : Fin 50000) (k : Fin 128), i = ix2 r k := ⟨i 0, i 1, eq_ix2 i⟩
    exact (Cert.KernelIdeal.KernelValue.value m ρ c r k).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
